-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S3200000 : Shape := ⟨1, ![3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S16x7 .f32) (main_arg6 : FVec F S7 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x7 .f32 := Host.absf main_arg5
  let main_cst_6 : FVec F S_ .f32 := constant S_ .f32 0x7F800000#32
  let main_v20 : FVec F S16x7 .f32 := broadcastInDim S16x7 ![] bcast_S_S16x7 main_cst_6
  let main_v21 : IVec S16x7 1 := cmpf .olt main_v19 main_v20
  let main_c_7 : IVec S_ 1 := constantI S_ 1 1#1
  let main_v22 : IVec S_ 1 := (fun x v => Host.reduce IntOp.andi x v reducesTo_S16x7_S_d0_1 h_S_) main_v21 main_c_7
  let main_v23 : IVec S_ 1 := andi main_v18 main_v22
  let main_v24 : FVec F S7 .f32 := Host.absf main_arg6
  let main_cst_8 : FVec F S_ .f32 := constant S_ .f32 0x7F800000#32
  let main_v25 : FVec F S7 .f32 := broadcastInDim S7 ![] bcast_S_S7 main_cst_8
  let main_v26 : IVec S7 1 := cmpf .olt main_v24 main_v25
  let main_c_9 : IVec S_ 1 := constantI S_ 1 1#1
  let main_v27 : IVec S_ 1 := (fun x v => Host.reduce IntOp.andi x v reducesTo_S7_S_d0 h_S_) main_v26 main_c_9
  let main_v28 : IVec S_ 1 := andi main_v23 main_v27
  main_v28

def fn {F : FTy → Type} [FloatOps F] (main_arg0 : FVec F S100000x512 .f32) (main_arg1 : IVec S2x3200000 32) (main_arg2 : FVec F S3200000 .f32) (main_arg3 : FVec F S512x16 .f32) (main_arg4 : FVec F S16 .f32) (main_arg5 : FVec F S16x7 .f32) (main_arg6 : FVec F S7 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S512x16 .f32 := Host.absf main_arg3
  let main_cst_2 : FVec F S_ .f32 := constant S_ .f32 0x7F800000#32
  let main_v10 : FVec F S512x16 .f32 := broadcastInDim S512x16 ![] bcast_S_S512x16 main_cst_2
  let main_v11 : IVec S512x16 1 := cmpf .olt main_v9 main_v10
  let main_c_3 : IVec S_ 1 := constantI S_ 1 1#1
  let main_v12 : IVec S_ 1 := (fun x v => Host.reduce IntOp.andi x v reducesTo_S512x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_v13 main_v16
-- ==== Kernel.lean ====
abbrev S100000x512 : Shape := ⟨2, ![100000, 512]⟩
abbrev S2x3200000 : Shape := ⟨2, ![2, 3200000]⟩
abbrev S3200000 : Shape := ⟨1, ![3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S1x3200000 : Shape := ⟨2, ![1, 3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S2000x512 : Shape := ⟨2, ![2000, 512]⟩
abbrev S2000x16 : Shape := ⟨2, ![2000, 16]⟩
abbrev S3300000x16 : Shape := ⟨2, ![3300000, 16]⟩
abbrev S1x16 : Shape := ⟨2, ![1, 16]⟩
abbrev S100000x7 : Shape := ⟨2, ![100000, 7]⟩
abbrev S10000x16 : Shape := ⟨2, ![10000, 16]⟩
abbrev S10000x7 : Shape := ⟨2, ![10000, 7]⟩
abbrev S3300000x7 : Shape := ⟨2, ![3300000, 7]⟩
abbrev S1x7 : Shape := ⟨2, ![1, 7]⟩
abbrev S10000 : Shape := ⟨1, ![10000]⟩
abbrev S10000x1 : Shape := ⟨2, ![10000, 1]⟩

abbrev nBuf : Space → Nat
  | .hbm => 86
  | .vmem => 16
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S3200000, .f32⟩
  | .hbm, ⟨3, _⟩ => ⟨S512x16, .f32⟩
  | .hbm, ⟨4, _⟩ => ⟨S16, .f32⟩
  | .hbm, ⟨5, _⟩ => ⟨S16x7, .f32⟩
  | .hbm, ⟨6, _⟩ => ⟨S7, .f32⟩
  | .hbm, ⟨7, _⟩ => ⟨S1x3200000, .i32⟩
  | .hbm, ⟨8, _⟩ => ⟨S3200000, .i32⟩
  | .hbm, ⟨9, _⟩ => ⟨S1x3200000, .i32⟩
  | .hbm, ⟨10, _⟩ => ⟨S3200000, .i32⟩
  | .hbm, ⟨11, _⟩ => ⟨S100000, .i32⟩
  | .hbm, ⟨12, _⟩ => ⟨S3300000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S3300000x1, .f32⟩
  | .hbm, ⟨51, _⟩ => ⟨S_, .i32⟩
  | .hbm, ⟨52, _⟩ => ⟨S3300000, .i32⟩
  | .hbm, ⟨53, _⟩ => ⟨S3300000, .i1⟩
  | .hbm, ⟨54, _⟩ => ⟨S_, .i32⟩
  | .hbm, ⟨55, _⟩ => ⟨S3300000, .i32⟩
  | .hbm, ⟨56, _⟩ => ⟨S3300000, .i32⟩
  | .hbm, ⟨57, _⟩ => ⟨S3300000, .i32⟩
  | .hbm, ⟨58, _⟩ => ⟨S3300000x1, .i32⟩
  | .hbm, ⟨59, _⟩ => ⟨S3300000x16, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x7, .f32⟩
  | .hbm, ⟨68, _⟩ => ⟨S3300000x1, .f32⟩
  | .hbm, ⟨69, _⟩ => ⟨S_, .i32⟩
  | .hbm, ⟨70, _⟩ => ⟨S3300000, .i32⟩
  | .hbm, ⟨71, _⟩ => ⟨S3300000, .i1⟩
  | .hbm, ⟨72, _⟩ => ⟨S_, .i32⟩
  | .hbm, ⟨73, _⟩ => ⟨S3300000, .i32⟩
  | .hbm, ⟨74, _⟩ => ⟨S3300000, .i32⟩
  | .hbm, ⟨75, _⟩ => ⟨S3300000, .i32⟩
  | .hbm, ⟨76, _⟩ => ⟨S3300000x1, .i32⟩
  | .hbm, ⟨77, _⟩ => ⟨S3300000x7, .f32⟩
  | .hbm, ⟨78, _⟩ => ⟨S3300000x7, .f32⟩
  | .hbm, ⟨79, _⟩ => ⟨S3300000x7, .f32⟩
  | .hbm, ⟨80, _⟩ => ⟨S_, .f32⟩
  | .hbm, ⟨81, _⟩ => ⟨S100000x7, .f32⟩
  | .hbm, ⟨82, _⟩ => ⟨S3300000x1, .i32⟩
  | .hbm, ⟨83, _⟩ => ⟨S100000x7, .f32⟩
  | .hbm, ⟨84, _⟩ => ⟨S1x7, .f32⟩
  | .hbm, ⟨85, _⟩ => ⟨S100000x7, .f32⟩
  | .local _ .vmem, ⟨0, _⟩ => ⟨S2000x512, .f32⟩
  | .local _ .vmem, ⟨1, _⟩ => ⟨S2000x512, .f32⟩
  | .local _ .vmem, ⟨2, _⟩ => ⟨S512x16, .f32⟩
  | .local _ .vmem, ⟨3, _⟩ => ⟨S2000x16, .f32⟩
  | .local _ .vmem, ⟨4, _⟩ => ⟨S2000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S16x7, .f32⟩
  | .local _ .vmem, ⟨9, _⟩ => ⟨S10000x7, .f32⟩
  | .local _ .vmem, ⟨10, _⟩ => ⟨S10000x7, .f32⟩
  | .local _ .vmem, ⟨11, _⟩ => ⟨S10000x7, .f32⟩
  | .local _ .vmem, ⟨12, _⟩ => ⟨S10000x7, .f32⟩
  | .local _ .vmem, ⟨13, _⟩ => ⟨S1x7, .f32⟩
  | .local _ .vmem, ⟨14, _⟩ => ⟨S10000x7, .f32⟩
  | .local _ .vmem, ⟨15, _⟩ => ⟨S10000x7, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_9 : Ref sig .tc := ⟨.hbm, 69, rfl⟩
abbrev main_v49 : Ref sig .tc := ⟨.hbm, 70, rfl⟩
abbrev main_v50 : Ref sig .tc := ⟨.hbm, 71, rfl⟩
abbrev main_c_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x7 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x7 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x7 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x7 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x7 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S2000x16_S2000x16_0_0 : ∀ a, (![0, 0] : Fin 2 → Nat) a + S2000x16.size a ≤ S2000x16.size a
  h_S2000x16 : 0 < S2000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x7_S16x7_0_0 : ∀ a, (![0, 0] : Fin 2 → Nat) a + S16x7.size a ≤ S16x7.size a
  h_S16x7 : 0 < S16x7.numel
  inb_S10000x7_S10000x7_0_0 : ∀ a, (![0, 0] : Fin 2 → Nat) a + S10000x7.size a ≤ S10000x7.size a
  h_S10000x7 : 0 < S10000x7.numel
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  shapeCasts_S7_S1x7 : S7.ShapeCasts S1x7
  shapeCasts_S10000x7_S10000x7 : S10000x7.ShapeCasts S10000x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S10000x7 : S1x7.Broadcasts S10000x7
  reduces_S10000x7_S10000 : S10000x7.Reduces [1] S10000
  shapeCasts_S10000_S10000x1 : S10000.ShapeCasts S10000x1
  broadcasts_S10000x1_S10000x7 : S10000x1.Broadcasts S10000x7
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x512_S512x16_S2000x16_1_0_0_1_n_n_wf : DotDims.WF S2000x512 S512x16 S2000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x7_S10000x7_1_0_0_1_n_n_wf : DotDims.WF S10000x16 S16x7 S10000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x7.size a ≤ S16x7.size a
  hwx1_2 : ∀ i : grid1.Coords, EltTy.bits .f32 = 32 ∨ (Rect.block (s := S16x7) S16x7.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x7.size a ≤ S100000x7.size a
  hwx1_3 : ∀ i : grid1.Coords, EltTy.bits .f32 = 32 ∨ (Rect.block (s := S100000x7) S10000x7.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x7.size a ≤ S100000x7.size a
  hwx2_0 : ∀ i : grid2.Coords, EltTy.bits .f32 = 32 ∨ (Rect.block (s := S100000x7) S10000x7.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x7.size a ≤ S1x7.size a
  hwx2_1 : ∀ i : grid2.Coords, EltTy.bits .f32 = 32 ∨ (Rect.block (s := S1x7) S1x7.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x7.size a ≤ S100000x7.size a
  hwx2_2 : ∀ i : grid2.Coords, EltTy.bits .f32 = 32 ∨ (Rect.block (s := S100000x7) S10000x7.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x512_S512x16_S2000x16_1_0_0_1_n_n : DotDims S2000x512 S512x16 S2000x16 where
  lhsContracting := [1]
  rhsContracting := [0]
  lhsNonContracting := [0]
  rhsNonContracting := [1]
  lhsBatch := []
  rhsBatch := []
  wf := dot_S2000x512_S512x16_S2000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x7_S10000x7_1_0_0_1_n_n : DotDims S10000x16 S16x7 S10000x7 where
  lhsContracting := [1]
  rhsContracting := [0]
  lhsNonContracting := [0]
  rhsNonContracting := [1]
  lhsBatch := []
  rhsBatch := []
  wf := dot_S10000x16_S16x7_S10000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S16x7.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S10000x7.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S10000x7.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x7.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S10000x7.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S3200000 : Shape := ⟨1, ![3200000]⟩
abbrev S512x16 : Shape := ⟨2, ![512, 16]⟩
abbrev S16 : Shape := ⟨1, ![16]⟩
abbrev S16x7 : Shape := ⟨2, ![16, 7]⟩
abbrev S7 : Shape := ⟨1, ![7]⟩
abbrev S100000x16 : Shape := ⟨2, ![100000, 16]⟩
abbrev S1x3200000 : Shape := ⟨2, ![1, 3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x7 : Shape := ⟨2, ![100000, 7]⟩
abbrev S3300000x7 : Shape := ⟨2, ![3300000, 7]⟩
abbrev S1x7 : Shape := ⟨2, ![1, 7]⟩
abbrev S100000x1 : Shape := ⟨2, ![100000, 1]⟩

abbrev nBuf : Space → Nat
  | .hbm => 149
  | .vmem => 0
  | .smem => 0
  | _ => 0

abbrev hbmTy0_0 (i : Nat) : BufTy := match i % 128 with
  | 0 => ⟨S100000x512, .f32⟩
  | 1 => ⟨S2x3200000, .i32⟩
  | 2 => ⟨S3200000, .f32⟩
  | 3 => ⟨S512x16, .f32⟩
  | 4 => ⟨S16, .f32⟩
  | 5 => ⟨S16x7, .f32⟩
  | 6 => ⟨S7, .f32⟩
  | 7 => ⟨S100000x16, .f32⟩
  | 8 => ⟨S1x3200000, .i32⟩
  | 9 => ⟨S3200000, .i32⟩
  | 10 => ⟨S1x3200000, .i32⟩
  | 11 => ⟨S3200000, .i32⟩
  | 12 => ⟨S100000, .i32⟩
  | 13 => ⟨S3300000, .i32⟩
  | 14 => ⟨S3300000, .i32⟩
  | 15 => ⟨S_, .f32⟩
  | 16 => ⟨S100000, .f32⟩
  | 17 => ⟨S3300000, .f32⟩
  | 18 => ⟨S_, .f32⟩
  | 19 => ⟨S100000, .f32⟩
  | 20 => ⟨S3300000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S3300000, .i32⟩
  | 32 => ⟨S3300000, .i1⟩
  | 33 => ⟨S_, .i32⟩
  | 34 => ⟨S3300000, .i32⟩
  | 35 => ⟨S3300000, .i32⟩
  | 36 => ⟨S3300000, .i32⟩
  | 37 => ⟨S3300000x1, .i32⟩
  | 38 => ⟨S3300000, .f32⟩
  | 39 => ⟨S3300000, .f32⟩
  | 40 => ⟨S_, .i32⟩
  | 41 => ⟨S3300000, .i32⟩
  | 42 => ⟨S3300000, .i1⟩
  | 43 => ⟨S_, .i32⟩
  | 44 => ⟨S3300000, .i32⟩
  | 45 => ⟨S3300000, .i32⟩
  | 46 => ⟨S3300000, .i32⟩
  | 47 => ⟨S3300000x1, .i32⟩
  | 48 => ⟨S3300000, .f32⟩
  | 49 => ⟨S3300000, .f32⟩
  | 50 => ⟨S3300000x1, .f32⟩
  | 51 => ⟨S_, .i32⟩
  | 52 => ⟨S3300000, .i32⟩
  | 53 => ⟨S3300000, .i1⟩
  | 54 => ⟨S_, .i32⟩
  | 55 => ⟨S3300000, .i32⟩
  | 56 => ⟨S3300000, .i32⟩
  | 57 => ⟨S3300000, .i32⟩
  | 58 => ⟨S3300000x1, .i32⟩
  | 59 => ⟨S3300000x16, .f32⟩
  | 60 => ⟨S3300000x16, .f32⟩
  | 61 => ⟨S3300000x16, .f32⟩
  | 62 => ⟨S_, .f32⟩
  | 63 => ⟨S100000x16, .f32⟩
  | 64 => ⟨S3300000x1, .i32⟩
  | 65 => ⟨S100000x16, .f32⟩
  | 66 => ⟨S1x16, .f32⟩
  | 67 => ⟨S100000x16, .f32⟩
  | 68 => ⟨S100000x16, .f32⟩
  | 69 => ⟨S_, .f32⟩
  | 70 => ⟨S100000x16, .f32⟩
  | 71 => ⟨S100000x16, .f32⟩
  | 72 => ⟨S100000x7, .f32⟩
  | 73 => ⟨S1x3200000, .i32⟩
  | 74 => ⟨S3200000, .i32⟩
  | 75 => ⟨S1x3200000, .i32⟩
  | 76 => ⟨S3200000, .i32⟩
  | 77 => ⟨S100000, .i32⟩
  | 78 => ⟨S3300000, .i32⟩
  | 79 => ⟨S3300000, .i32⟩
  | 80 => ⟨S_, .f32⟩
  | 81 => ⟨S100000, .f32⟩
  | 82 => ⟨S3300000, .f32⟩
  | 83 => ⟨S_, .f32⟩
  | 84 => ⟨S100000, .f32⟩
  | 85 => ⟨S3300000x1, .i32⟩
  | 86 => ⟨S100000, .f32⟩
  | 87 => ⟨S_, .f32⟩
  | 88 => ⟨S100000, .f32⟩
  | 89 => ⟨S100000, .i1⟩
  | 90 => ⟨S100000, .f32⟩
  | 91 => ⟨S_, .f32⟩
  | 92 => ⟨S_, .f32⟩
  | 93 => ⟨S100000, .f32⟩
  | 94 => ⟨S100000, .f32⟩
  | 95 => ⟨S_, .i32⟩
  | 96 => ⟨S3300000, .i32⟩
  | 97 => ⟨S3300000, .i1⟩
  | 98 => ⟨S_, .i32⟩
  | 99 => ⟨S3300000, .i32⟩
  | 100 => ⟨S3300000, .i32⟩
  | 101 => ⟨S3300000, .i32⟩
  | 102 => ⟨S3300000x1, .i32⟩
  | 103 => ⟨S3300000, .f32⟩
  | 104 => ⟨S3300000, .f32⟩
  | 105 => ⟨S_, .i32⟩
  | 106 => ⟨S3300000, .i32⟩
  | 107 => ⟨S3300000, .i1⟩
  | 108 => ⟨S_, .i32⟩
  | 109 => ⟨S3300000, .i32⟩
  | 110 => ⟨S3300000, .i32⟩
  | 111 => ⟨S3300000, .i32⟩
  | 112 => ⟨S3300000x1, .i32⟩
  | 113 => ⟨S3300000, .f32⟩
  | 114 => ⟨S3300000, .f32⟩
  | 115 => ⟨S3300000x1, .f32⟩
  | 116 => ⟨S_, .i32⟩
  | 117 => ⟨S3300000, .i32⟩
  | 118 => ⟨S3300000, .i1⟩
  | 119 => ⟨S_, .i32⟩
  | 120 => ⟨S3300000, .i32⟩
  | 121 => ⟨S3300000, .i32⟩
  | 122 => ⟨S3300000, .i32⟩
  | 123 => ⟨S3300000x1, .i32⟩
  | 124 => ⟨S3300000x7, .f32⟩
  | 125 => ⟨S3300000x7, .f32⟩
  | 126 => ⟨S3300000x7, .f32⟩
  | 127 => ⟨S_, .f32⟩
  | _ => ⟨S100000x512, .f32⟩

abbrev hbmTy0_1 (i : Nat) : BufTy := match i % 128 with
  | 0 => ⟨S100000x7, .f32⟩
  | 1 => ⟨S3300000x1, .i32⟩
  | 2 => ⟨S100000x7, .f32⟩
  | 3 => ⟨S1x7, .f32⟩
  | 4 => ⟨S100000x7, .f32⟩
  | 5 => ⟨S100000x7, .f32⟩
  | 6 => ⟨S_, .f32⟩
  | 7 => ⟨S100000, .f32⟩
  | 8 => ⟨S_, .f32⟩
  | 9 => ⟨S100000, .f32⟩
  | 10 => ⟨S100000, .f32⟩
  | 11 => ⟨S100000x1, .f32⟩
  | 12 => ⟨S100000x7, .f32⟩
  | 13 => ⟨S100000x7, .f32⟩
  | 14 => ⟨S100000x7, .f32⟩
  | 15 => ⟨S_, .f32⟩
  | 16 => ⟨S100000, .f32⟩
  | 17 => ⟨S100000x1, .f32⟩
  | 18 => ⟨S100000x1, .f32⟩
  | 19 => ⟨S100000x7, .f32⟩
  | 20 => ⟨S100000x7, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_9 : Ref sig .tc := ⟨.hbm, 80, rfl⟩
abbrev main_v58 : Ref sig .tc := ⟨.hbm, 81, rfl⟩
abbrev main_v59 : Ref sig .tc := ⟨.hbm, 82, rfl⟩
abbrev main_cst_10 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_11 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_12 : Ref sig .tc := ⟨.hbm, 91, rfl⟩
abbrev main_call2_v0 : Ref sig .tc := ⟨.hbm, 92, rfl⟩
abbrev main_call2_v1 : Ref sig .tc := ⟨.hbm, 93, rfl⟩
abbrev main_v66 : Ref sig .tc := ⟨.hbm, 94, rfl⟩
abbrev main_c_13 : Ref sig .tc := ⟨.hbm, 95, rfl⟩
abbrev main_v67 : Ref sig .tc := ⟨.hbm, 96, rfl⟩
abbrev main_v68 : Ref sig .tc := ⟨.hbm, 97, rfl⟩
abbrev main_c_14 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_c_15 : Ref sig .tc := ⟨.hbm, 105, rfl⟩
abbrev main_v75 : Ref sig .tc := ⟨.hbm, 106, rfl⟩
abbrev main_v76 : Ref sig .tc := ⟨.hbm, 107, rfl⟩
abbrev main_c_16 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_c_17 : Ref sig .tc := ⟨.hbm, 116, rfl⟩
abbrev main_v84 : Ref sig .tc := ⟨.hbm, 117, rfl⟩
abbrev main_v85 : Ref sig .tc := ⟨.hbm, 118, rfl⟩
abbrev main_c_18 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_19 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_call3_cst : Ref sig .tc := ⟨.hbm, 134, rfl⟩
abbrev main_call3_v0 : Ref sig .tc := ⟨.hbm, 135, rfl⟩
abbrev main_call3_cst_0 : Ref sig .tc := ⟨.hbm, 136, rfl⟩
abbrev main_call3_v1 : Ref sig .tc := ⟨.hbm, 137, rfl⟩
abbrev main_call3_v2 : Ref sig .tc := ⟨.hbm, 138, rfl⟩
abbrev main_call3_v3 : Ref sig .tc := ⟨.hbm, 139, rfl⟩
abbrev main_call3_v4 : Ref sig .tc := ⟨.hbm, 140, rfl⟩
abbrev main_call3_v5 : Ref sig .tc := ⟨.hbm, 141, rfl⟩
abbrev main_call3_v6 : Ref sig .tc := ⟨.hbm, 142, rfl⟩
abbrev main_call3_cst_1 : Ref sig .tc := ⟨.hbm, 143, rfl⟩
abbrev main_call3_v7 : Ref sig .tc := ⟨.hbm, 144, rfl⟩
abbrev main_call3_v8 : Ref sig .tc := ⟨.hbm, 145, rfl⟩
abbrev main_call3_v9 : Ref sig .tc := ⟨.hbm, 146, rfl⟩
abbrev main_call3_v10 : Ref sig .tc := ⟨.hbm, 147, rfl⟩
abbrev main_v99 : Ref sig .tc := ⟨.hbm, 148, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  reducesTo_S100000x7_S100000_d1 : S100000x7.ReducesTo [1] S100000
  h_S_ : 0 < S_.numel
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  dot_S100000x512_S512x16_S100000x16_1_0_0_1_n_n_wf : DotDims.WF S100000x512 S512x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x7_S100000x7_1_0_0_1_n_n_wf : DotDims.WF S100000x16 S16x7 S100000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

class Facts : Prop extends Facts₀ where

variable [Facts]
-- ==== Proof.KernelRun.lean ====
/-
  The idealized kernel program's run with its result named.  @main is host operations, then three grid launches
  with host operations between them; every weakly fair execution terminates without a fault, the seven argument arrays
  end as launched, and the result array ends at the contents the last launch's write-backs leave: the fold of the
  program's segments over the launch memory, read at the result's buffer.
-/
import proofs.«108973_j20822001451081_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer holds the last segment
    boundary's contents at it, and each argument array is as launched. -/
theorem run_named : θ_run defs (onTc (τ := τ) (main (F := F))) ⟨m, fun _ => 0, ρ⟩ (fun r => ∀ c : Dev nD,
      r.2.mem ((c.tc : Thread nD τ).loc main_v62) = W8 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v62 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.Named

end
-- ==== Proof.HostFns.lean ====
/-
  The aggregation step both programs apply between the dense stages, as ONE function of its four operands: the rows of H
  are gathered at the source indices (an index below zero wrapped by the number of nodes), each gathered row is scaled by
  its edge's coefficient, and the scaled rows are summed into the rows named by the destination indices, from zero.
  Stated for 16 columns and for 7 columns.  Nothing here opens the gather or the scatter.
-/
import proofs.«108973_j20822001451081_1_alg».proof.Proof.Gen.KernelIdeal

noncomputable section

namespace Cert.Gcn

open Cert.KernelIdeal Cert.KernelIdeal.Facts₀ Idealize.ShloMosaic

variable {F : FTy → Type} [FloatOps F]

/-- Σ over edges e with dst e = d of coef e · H(src e, ·), for H of 16 columns. -/
def agg16 (S D : (⟨S3300000, .i32⟩ : BufTy).Contents (Elt F)) (N : (⟨S3300000, .f32⟩ : BufTy).Contents (Elt F))
    (H : (⟨S100000x16, .f32⟩ : BufTy).Contents (Elt F)) : (⟨S100000x16, .f32⟩ : BufTy).Contents (Elt F) :=
  Host.scatterAdd scatter_S100000x16_S3300000x1_S3300000x16_1_0_0_1
    (broadcastInDim S100000x16 ![] bcast_S_S100000x16 (constant S_ .f32 0x00000000#32))
    (broadcastInDim S3300000x1 ![0] bcast_S3300000_S3300000x1_0 D)
    (mulf (broadcastInDim S3300000x16 ![0, 1] bcast_S3300000x1_S3300000x16_0_1
            (broadcastInDim S3300000x1 ![0] bcast_S3300000_S3300000x1_0 N))
          (Host.gather gather_S100000x16_S3300000x1_S3300000x16_1_0_n_n_0_1_116 H
            (broadcastInDim S3300000x1 ![0] bcast_S3300000_S3300000x1_0
              (select (cmpi .slt S (broadcastInDim S3300000 ![] bcast_S_S3300000 (constantI S_ 32 0#32)))
                      (addi S (broadcastInDim S3300000 ![] bcast_S_S3300000 (constantI S_ 32 100000#32))) S))))

/-- The same for H of 7 columns. -/
def agg7 (S D : (⟨S3300000, .i32⟩ : BufTy).Contents (Elt F)) (N : (⟨S3300000, .f32⟩ : BufTy).Contents (Elt F))
    (H : (⟨S100000x7, .f32⟩ : BufTy).Contents (Elt F)) : (⟨S100000x7, .f32⟩ : BufTy).Contents (Elt F) :=
  Host.scatterAdd scatter_S100000x7_S3300000x1_S3300000x7_1_0_0_1
    (broadcastInDim S100000x7 ![] bcast_S_S100000x7 (constant S_ .f32 0x00000000#32))
    (broadcastInDim S3300000x1 ![0] bcast_S3300000_S3300000x1_0 D)
    (mulf (broadcastInDim S3300000x7 ![0, 1] bcast_S3300000x1_S3300000x7_0_1
            (broadcastInDim S3300000x1 ![0] bcast_S3300000_S3300000x1_0 N))
          (Host.gather gather_S100000x7_S3300000x1_S3300000x7_1_0_n_n_0_1_17 H
            (broadcastInDim S3300000x1 ![0] bcast_S3300000_S3300000x1_0
              (select (cmpi .slt S (broadcastInDim S3300000 ![] bcast_S_S3300000 (constantI S_ 32 0#32)))
                      (addi S (broadcastInDim S3300000 ![] bcast_S_S3300000 (constantI S_ 32 100000#32))) S))))

/-! ## The edge structure: sources, destinations and coefficients of the edges with the self-loops appended -/

/-- Row r of the [2, E] edge list followed by 0, 1, …, n - 1 (a self-loop per node). -/
def srcK (EI : (⟨S2x3200000, .i32⟩ : BufTy).Contents (Elt F)) : (⟨S3300000, .i32⟩ : BufTy).Contents (Elt F) :=
  concatenate S3300000 0 [⟨S3200000, shapeCast _ (extractStridedSlice S1x3200000 ![0, 0] EI slices_S2x3200000_S1x3200000_0_0) shapeCasts_S1x3200000_S3200000⟩, ⟨S100000, iotaInDim S100000 32 0⟩] concatenates_S3200000_S100000_S3300000_d0

def dstK (EI : (⟨S2x3200000, .i32⟩ : BufTy).Contents (Elt F)) : (⟨S3300000, .i32⟩ : BufTy).Contents (Elt F) :=
  concatenate S3300000 0 [⟨S3200000, shapeCast _ (extractStridedSlice S1x3200000 ![1, 0] EI slices_S2x3200000_S1x3200000_1_0) shapeCasts_S1x3200000_S3200000⟩, ⟨S100000, iotaInDim S100000 32 0⟩] concatenates_S3200000_S100000_S3300000_d0

/-- The edge weights followed by a weight one per self-loop. -/
def wK (EW : (⟨S3200000, .f32⟩ : BufTy).Contents (Elt F)) : (⟨S3300000, .f32⟩ : BufTy).Contents (Elt F) :=
  concatenate S3300000 0 [⟨S3200000, EW⟩, ⟨S100000, broadcastInDim S100000 ![] bcast_S_S100000 (constant S_ .f32 0x3F800000#32)⟩] concatenates_S3200000_S100000_S3300000_d0

/-- The weighted in-degree of every node: the weights summed into their destinations, from zero. -/
def degK (EI : (⟨S2x3200000, .i32⟩ : BufTy).Contents (Elt F)) (EW : (⟨S3200000, .f32⟩ : BufTy).Contents (Elt F)) : (⟨S100000, .f32⟩ : BufTy).Contents (Elt F) :=
  Host.scatterAdd scatter_S100000_S3300000x1_S3300000_n_0_0_1 (broadcastInDim S100000 ![] bcast_S_S100000 (constant S_ .f32 0x00000000#32))
    (broadcastInDim S3300000x1 ![0] bcast_S3300000_S3300000x1_0 (dstK EI)) (wK EW)

/-- deg^(-1/2) where the degree is positive, zero elsewhere. -/
def dinvK (EI : (⟨S2x3200000, .i32⟩ : BufTy).Contents (Elt F)) (EW : (⟨S3200000, .f32⟩ : BufTy).Contents (Elt F)) : (⟨S100000, .f32⟩ : BufTy).Contents (Elt F) :=
  select (cmpf .ogt (degK EI EW) (broadcastInDim S100000 ![] bcast_S_S100000 (constant S_ .f32 0x00000000#32)))
    (Host.rsqrt (degK EI EW)) (broadcastInDim S100000 ![] bcast_S_S100000 (id (constant S_ .f32 0x00000000#32)))

/-- An index array made a column of start indices, an index below zero wrapped by the number of nodes. -/
def wrapK (S : (⟨S3300000, .i32⟩ : BufTy).Contents (Elt F)) : (⟨S3300000x1, .i32⟩ : BufTy).Contents (Elt F) :=
  broadcastInDim S3300000x1 ![0] bcast_S3300000_S3300000x1_0
    (select (cmpi .slt S (broadcastInDim S3300000 ![] bcast_S_S3300000 (constantI S_ 32 0#32)))
            (addi S (broadcastInDim S3300000 ![] bcast_S_S3300000 (constantI S_ 32 100000#32))) S)

/-- The coefficient of an edge: dinv(src) · weight · dinv(dst). -/
def normK (EI : (⟨S2x3200000, .i32⟩ : BufTy).Contents (Elt F)) (EW : (⟨S3200000, .f32⟩ : BufTy).Contents (Elt F)) : (⟨S3300000, .f32⟩ : BufTy).Contents (Elt F) :=
  mulf (mulf (Host.gather gather_S100000_S3300000x1_S3300000_n_0_n_n_0_1_1 (dinvK EI EW) (wrapK (srcK EI))) (wK EW))
       (Host.gather gather_S100000_S3300000x1_S3300000_n_0_n_n_0_1_1 (dinvK EI EW) (wrapK (dstK EI)))

end Cert.Gcn

end
-- ==== Proof.LibStretch.lean ====
/-
  Reading a program's host operations stretch by stretch.  The buffer contents after a list of host operations is a fold
  of the operations over the contents the list is entered with; over two stretches run one after the other it is the
  second stretch's fold over the first's (`after_append`).  So a long host program is read one short stretch at a time,
  each stretch over ANY contents V: which buffers it leaves as they were (`unwritten`), and what it writes into the
  buffers a later stretch reads, as the operations' term of what it finds (`read_stretch`).  Short stretches matter where
  operations carry casts between a buffer's recorded type and its literal type (the operations of an outlined function):
  many of them nested under one comparison are costly, two or three are not.
-/
import Idealize.ShloMosaic.Lib.StableHlo.Run

namespace Cert.Stretch

open Idealize.ShloMosaic Idealize.ShloMosaic.StableHlo

/-- The contents after two stretches run one after the other: the second stretch's fold over the first's. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

end Cert.Stretch

/-- `unwritten ops` closes `after ops V b = V b` for a literal stretch `ops` (named by an identifier that unfolds to the
    list) and a literal buffer `b` none of its operations writes: each operation's written buffer is another reference. -/
macro "unwritten" ops:ident : tactic =>
  `(tactic| exact Idealize.ShloMosaic.StableHlo.after_of_forall_not_mem _ _ (List.forall_iff_forall_mem.mp (by
      simp only [$ops:ident, List.Forall, Idealize.ShloMosaic.StableHlo.nullary_writes, Idealize.ShloMosaic.StableHlo.unary_writes, Idealize.ShloMosaic.StableHlo.binary_writes, Idealize.ShloMosaic.StableHlo.ternary_writes, Idealize.ShloMosaic.StableHlo.quaternary_writes, Idealize.ShloMosaic.StableHlo.reshape_writes, Idealize.ShloMosaic.StableHlo.binaryIndexed_writes, Finset.mem_singleton]
      repeat' apply And.intro
      all_goals exact Idealize.ShloMosaic.StableHlo.devRef_ne_of_ne (by decide))))

/-- `read_stretch` closes `after ops V b = t` for a literal stretch and a buffer it writes, `t` the operations' term over
    `V` at the buffers the stretch reads: every operation's result at its own buffer is its function's value, at any other
    buffer what was there (one pass over the stretch); what is left is the same term on both sides. -/
macro "read_stretch" : tactic =>
  `(tactic| ((open Idealize.ShloMosaic.StableHlo in after_results_simp) <;> rfl))

/-- The same, one rewrite per operation: for a stretch of a few operations. -/
macro "read_stretch_small" : tactic =>
  `(tactic| ((open Idealize.ShloMosaic.StableHlo in after_results) <;> rfl))
-- ==== Proof.KernelHost.lean ====
/-
  The idealized kernel program's host operations, stretch by stretch, over ANY buffer contents V the stretch is entered
  with: what each stretch writes into the buffers the later steps read, as the edge-structure and aggregation functions of
  what it finds, and which buffers it leaves as they were.
-/
import proofs.«108973_j20822001451081_1_alg».proof.Proof.Gen.KernelIdeal.Frame
import proofs.«108973_j20822001451081_1_alg».proof.Proof.HostFns
import proofs.«108973_j20822001451081_1_alg».proof.Proof.LibStretch
import Idealize.ShloMosaic.Lib.StableHlo.Run

set_option maxRecDepth 16384

noncomputable section

namespace Cert.Gcn.KHost

open Cert.KernelIdeal Cert.KernelIdeal.Gen Idealize.ShloMosaic Idealize.ShloMosaic.TcCoe Idealize.SL.Sem

variable {F : FTy → Type} [FloatOps F]

/-! ## The first stretch: the edge lists with the self-loops, the degrees -/

set_option maxHeartbeats 1000000 in
theorem s0_v5 (V : Valuation τ sig (Elt F)) :
    StableHlo.after hostOps0 V (Proc.devRef .tc main_v5) = srcK (V (Proc.devRef .tc main_arg1)) := by
  read_stretch
set_option maxHeartbeats 1000000 in
theorem s0_v6 (V : Valuation τ sig (Elt F)) :
    StableHlo.after hostOps0 V (Proc.devRef .tc main_v6) = dstK (V (Proc.devRef .tc main_arg1)) := by
  read_stretch
set_option maxHeartbeats 1000000 in
theorem s0_v8 (V : Valuation τ sig (Elt F)) :
    StableHlo.after hostOps0 V (Proc.devRef .tc main_v8) = wK (V (Proc.devRef .tc main_arg2)) := by
  read_stretch
set_option maxHeartbeats 1000000 in
theorem s0_v13 (V : Valuation τ sig (Elt F)) :
    StableHlo.after hostOps0 V (Proc.devRef .tc main_v13) = cmpf .ogt (degK (V (Proc.devRef .tc main_arg1)) (V (Proc.devRef .tc main_arg2))) (broadcastInDim S100000 ![] Cert.KernelIdeal.Facts₀.bcast_S_S100000 (constant S_ .f32 0x00000000#32)) := by
  read_stretch
set_option maxHeartbeats 1000000 in
theorem s0_v14 (V : Valuation τ sig (Elt F)) :
    StableHlo.after hostOps0 V (Proc.devRef .tc main_v14) = Host.rsqrt (degK (V (Proc.devRef .tc main_arg1)) (V (Proc.devRef .tc main_arg2))) := by
  read_stretch
set_option maxHeartbeats 1000000 in
theorem s0_cst_2 (V : Valuation τ sig (Elt F)) :
    StableHlo.after hostOps0 V (Proc.devRef .tc main_cst_2) = constant S_ .f32 0x00000000#32 := by
  read_stretch
theorem k0_arg0 (V : Valuation τ sig (Elt F)) : StableHlo.after hostOps0 V (Proc.devRef .tc main_arg0) = V (Proc.devRef .tc main_arg0) := by unwritten hostOps0
theorem k0_arg3 (V : Valuation τ sig (Elt F)) : StableHlo.after hostOps0 V (Proc.devRef .tc main_arg3) = V (Proc.devRef .tc main_arg3) := by unwritten hostOps0
theorem k0_arg4 (V : Valuation τ sig (Elt F)) : StableHlo.after hostOps0 V (Proc.devRef .tc main_arg4) = V (Proc.devRef .tc main_arg4) := by unwritten hostOps0
theorem k0_arg5 (V : Valuation τ sig (Elt F)) : StableHlo.after hostOps0 V (Proc.devRef .tc main_arg5) = V (Proc.devRef .tc main_arg5) := by unwritten hostOps0
theorem k0_arg6 (V : Valuation τ sig (Elt F)) : StableHlo.after hostOps0 V (Proc.devRef .tc main_arg6) = V (Proc.devRef .tc main_arg6) := by unwritten hostOps0

/-! ## The second stretch: the inverse square roots of the positive degrees -/

set_option maxHeartbeats 1000000 in
theorem s01_v15 (V : Valuation τ sig (Elt F)) :
    StableHlo.after hostOps0_1 V (Proc.devRef .tc main_v15) = select (V (Proc.devRef .tc main_v13)) (V (Proc.devRef .tc main_v14)) (broadcastInDim S100000 ![] Cert.KernelIdeal.Facts₀.bcast_S_S100000 (id (V (Proc.devRef .tc main_cst_2)))) := by
  read_stretch_small
theorem k01_v5 (V : Valuation τ sig (Elt F)) : StableHlo.after hostOps0_1 V (Proc.devRef .tc main_v5) = V (Proc.devRef .tc main_v5) := by unwritten hostOps0_1
theorem k01_v6 (V : Valuation τ sig (Elt F)) : StableHlo.after hostOps0_1 V (Proc.devRef .tc main_v6) = V (Proc.devRef .tc main_v6) := by unwritten hostOps0_1
theorem k01_v8 (V : Valuation τ sig (Elt F)) : StableHlo.after hostOps0_1 V (Proc.devRef .tc main_v8) = V (Proc.devRef .tc main_v8) := by unwritten hostOps0_1
theorem k01_arg0 (V : Valuation τ sig (Elt F)) : StableHlo.after hostOps0_1 V (Proc.devRef .tc main_arg0) = V (Proc.devRef .tc main_arg0) := by unwritten hostOps0_1
theorem k01_arg3 (V : Valuation τ sig (Elt F)) : StableHlo.after hostOps0_1 V (Proc.devRef .tc main_arg3) = V (Proc.devRef .tc main_arg3) := by unwritten hostOps0_1
theorem k01_arg4 (V : Valuation τ sig (Elt F)) : StableHlo.after hostOps0_1 V (Proc.devRef .tc main_arg4) = V (Proc.devRef .tc main_arg4) := by unwritten hostOps0_1
theorem k01_arg5 (V : Valuation τ sig (Elt F)) : StableHlo.after hostOps0_1 V (Proc.devRef .tc main_arg5) = V (Proc.devRef .tc main_arg5) := by unwritten hostOps0_1
theorem k01_arg6 (V : Valuation τ sig (Elt F)) : StableHlo.after hostOps0_1 V (Proc.devRef .tc main_arg6) = V (Proc.devRef .tc main_arg6) := by unwritten hostOps0_1

/-! ## The third stretch: the edges' coefficients -/

set_option maxHeartbeats 1000000 in
theorem s02_v31 (V : Valuation τ sig (Elt F)) :
    StableHlo.after hostOps0_2 V (Proc.devRef .tc main_v31) = mulf (mulf (Host.gather gather_S100000_S3300000x1_S3300000_n_0_n_n_0_1_1 (V (Proc.devRef .tc main_v15)) (wrapK (V (Proc.devRef .tc main_v5)))) (V (Proc.devRef .tc main_v8))) (Host.gather gather_S100000_S3300000x1_S3300000_n_0_n_n_0_1_1 (V (Proc.devRef .tc main_v15)) (wrapK (V (Proc.devRef .tc main_v6)))) := by
  read_stretch
theorem k02_v5 (V : Valuation τ sig (Elt F)) : StableHlo.after hostOps0_2 V (Proc.devRef .tc main_v5) = V (Proc.devRef .tc main_v5) := by unwritten hostOps0_2
theorem k02_v6 (V : Valuation τ sig (Elt F)) : StableHlo.after hostOps0_2 V (Proc.devRef .tc main_v6) = V (Proc.devRef .tc main_v6) := by unwritten hostOps0_2
theorem k02_arg0 (V : Valuation τ sig (Elt F)) : StableHlo.after hostOps0_2 V (Proc.devRef .tc main_arg0) = V (Proc.devRef .tc main_arg0) := by unwritten hostOps0_2
theorem k02_arg3 (V : Valuation τ sig (Elt F)) : StableHlo.after hostOps0_2 V (Proc.devRef .tc main_arg3) = V (Proc.devRef .tc main_arg3) := by unwritten hostOps0_2
theorem k02_arg4 (V : Valuation τ sig (Elt F)) : StableHlo.after hostOps0_2 V (Proc.devRef .tc main_arg4) = V (Proc.devRef .tc main_arg4) := by unwritten hostOps0_2
theorem k02_arg5 (V : Valuation τ sig (Elt F)) : StableHlo.after hostOps0_2 V (Proc.devRef .tc main_arg5) = V (Proc.devRef .tc main_arg5) := by unwritten hostOps0_2
theorem k02_arg6 (V : Valuation τ sig (Elt F)) : StableHlo.after hostOps0_2 V (Proc.devRef .tc main_arg6) = V (Proc.devRef .tc main_arg6) := by unwritten hostOps0_2

/-! ## Between the first and the second launch: the aggregation of the product's rows, the bias as a row -/

set_option maxHeartbeats 1000000 in
theorem s1_v45 (V : Valuation τ sig (Elt F)) :
    StableHlo.after hostOps1 V (Proc.devRef .tc main_v45) = agg16 (V (Proc.devRef .tc main_v5)) (V (Proc.devRef .tc main_v6)) (V (Proc.devRef .tc main_v31)) (V (Proc.devRef .tc main_v32)) := by
  read_stretch
set_option maxHeartbeats 1000000 in
theorem s1_v46 (V : Valuation τ sig (Elt F)) :
    StableHlo.after hostOps1 V (Proc.devRef .tc main_v46) = shapeCast S1x16 (V (Proc.devRef .tc main_arg4)) Cert.KernelIdeal.Facts₀.shapeCasts_S16_S1x16 := by
  read_stretch
theorem k1_v5 (V : Valuation τ sig (Elt F)) : StableHlo.after hostOps1 V (Proc.devRef .tc main_v5) = V (Proc.devRef .tc main_v5) := by unwritten hostOps1
theorem k1_v6 (V : Valuation τ sig (Elt F)) : StableHlo.after hostOps1 V (Proc.devRef .tc main_v6) = V (Proc.devRef .tc main_v6) := by unwritten hostOps1
theorem k1_v31 (V : Valuation τ sig (Elt F)) : StableHlo.after hostOps1 V (Proc.devRef .tc main_v31) = V (Proc.devRef .tc main_v31) := by unwritten hostOps1
theorem k1_arg5 (V : Valuation τ sig (Elt F)) : StableHlo.after hostOps1 V (Proc.devRef .tc main_arg5) = V (Proc.devRef .tc main_arg5) := by unwritten hostOps1
theorem k1_arg6 (V : Valuation τ sig (Elt F)) : StableHlo.after hostOps1 V (Proc.devRef .tc main_arg6) = V (Proc.devRef .tc main_arg6) := by unwritten hostOps1

/-! ## Between the second and the third launch: the same aggregation at 7 columns, the second bias as a row -/

set_option maxHeartbeats 1000000 in
theorem s2_v60 (V : Valuation τ sig (Elt F)) :
    StableHlo.after hostOps2 V (Proc.devRef .tc main_v60) = agg7 (V (Proc.devRef .tc main_v5)) (V (Proc.devRef .tc main_v6)) (V (Proc.devRef .tc main_v31)) (V (Proc.devRef .tc main_v47)) := by
  read_stretch
set_option maxHeartbeats 1000000 in
theorem s2_v61 (V : Valuation τ sig (Elt F)) :
    StableHlo.after hostOps2 V (Proc.devRef .tc main_v61) = shapeCast S1x7 (V (Proc.devRef .tc main_arg6)) Cert.KernelIdeal.Facts₀.shapeCasts_S7_S1x7 := by
  read_stretch

end Cert.Gcn.KHost

end
-- ==== Proof.Spec.lean ====
/-
  The three entry-wise functions the two programs are compared through, on the extended reals:
  an entry of a matrix product, an entry of the product of max(A + β, 0) with a matrix (β added along the rows),
  and the log-softmax of one row shifted by the row's largest entry.
-/
import Idealize.ShloMosaic.Lib.ValueIdx
import Idealize.ShloMosaic.PureOps.Ideal.Laws

noncomputable section

namespace Cert.Gcn

open Idealize.ShloMosaic Idealize.ShloMosaic.ValueIdx

/-- Entry (p, q) of the product of an [a, K] array with a [K, b] array: the sum over k of x(p, k) · w(k, q). -/
def mm {a K b : ℕ} (x : (⟨2, ![a, K]⟩ : Shape).Idx → EReal) (w : (⟨2, ![K, b]⟩ : Shape).Idx → EReal)
    (p : Fin a) (q : Fin b) : EReal :=
  ∑ k : Fin K, x (ix2 p k) * w (ix2 k q)

/-- Entry (p, q) of max(A + β, 0) · w, the vector β added to every row of A:
    the sum over k of max(A(p, k) + β k, 0) · w(k, q). -/
def brm {a K b : ℕ} (A : (⟨2, ![a, K]⟩ : Shape).Idx → EReal) (β : Fin K → EReal)
    (w : (⟨2, ![K, b]⟩ : Shape).Idx → EReal) (p : Fin a) (q : Fin b) : EReal :=
  ∑ k : Fin K, max (A (ix2 p k) + β k) 0 * w (ix2 k q)

/-- Log-softmax of the row y at column q, shifted by the row's largest entry M (the fold of max from ⊥):
    (y q - M) - log (∑ k, exp (y k - M)). -/
def lsmRow {b : ℕ} (y : Fin b → EReal) (q : Fin b) : EReal :=
  (y q - (Finset.univ : Finset (Fin b)).fold max ⊥ y)
    - Ideal.log (∑ k : Fin b, Ideal.exp (y k - (Finset.univ : Finset (Fin b)).fold max ⊥ y))

end Cert.Gcn

end
-- ==== Proof.LibMatmulIx.lean ====
/-
  A matrix product of an `[a, K]` array with a `[K, b]` array read at the entry `(p, q)`, at the ideal values:
  the sum over `k` of the left operand's `(p, k)` entry times the right operand's `(k, q)` entry — for a kernel's
  product accumulated into the zero splat (`matmul_zero_ix2`) and for the host's product (`dotGeneral_ix2`), stated
  for any dimension numbers that contract the left operand's columns with the right operand's rows (the four
  coordinate facts `hl0 … hr1`, which a literal record proves by evaluation).
-/
import Idealize.ShloMosaic.Lib.ValueIdx
import Idealize.ShloMosaic.PureOps.Ideal.Laws

namespace MatmulIx

open Idealize.ShloMosaic Idealize.ShloMosaic.ValueIdx

variable {a K b : ℕ} {φ₁ φ₂ : FTy}

/-- The contraction's sum re-indexed by the one contracted coordinate. -/
theorem sum_contr (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (x : (⟨2, ![a, K]⟩ : Shape).Idx → EReal) (w : (⟨2, ![K, b]⟩ : Shape).Idx → EReal) (p : Fin a) (q : Fin b) :
    ∑ k : D.contr.Idx, x (D.lhsIdx (ix2 p q) k) * w (D.rhsIdx (ix2 p q) k) = ∑ k : Fin K, x (ix2 p k) * w (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun c => Fin.ext (by
    match c with
    | ⟨0, _⟩ => exact hl0 _ _
    | ⟨1, _⟩ => exact (hl1 _ _).trans hk)
  have er : D.rhsIdx (ix2 p q) ((contrEquiv1 D K hr hs).symm k) = ix2 k q := funext fun c => Fin.ext (by
    match c with
    | ⟨0, _⟩ => exact (hr0 _ _).trans hk
    | ⟨1, _⟩ => exact hr1 _ _)
  rw [el, er]

/-- A kernel's matrix product into the zero splat, at `(p, q)`: the row of the left operand times the column of the
    right one. -/
theorem matmul_zero_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    matmul D prec x w (constant (F := Ideal) ⟨2, ![a, b]⟩ .f32 0x00000000#32) (ix2 p q)
      = ∑ k : Fin K, x (ix2 p k) * w (ix2 k q) :=
  (Ideal.matmul_constant_zero_apply D prec x w (ix2 p q)).trans (sum_contr D hr hs hl0 hl1 hr0 hr1 x w p q)

/-- The host's matrix product at `(p, q)`: the same sum. -/
theorem dotGeneral_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    Host.dotGeneral D prec x w (ix2 p q) = ∑ k : Fin K, x (ix2 p k) * w (ix2 k q) :=
  (Ideal.dotGeneral_apply D prec .single x w (ix2 p q)).trans (sum_contr D hr hs hl0 hl1 hr0 hr1 x w p q)

end MatmulIx
-- ==== Proof.LibLayout.lean ====
/-
  Three small readings of layout operations at an index given by coordinates, for the column forms a row reduction
  with kept dimensions produces: a vector of `a` entries cast to one column `[a, 1]`, a column broadcast along
  the rows `[a, 1] → [a, b]`, and the index a row sum inserts on the reduced axis.
-/
import Idealize.ShloMosaic.Lib.ValueLayout
import Idealize.ShloMosaic.PureOps.Ideal.Laws

namespace Cert.Attn.Layout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum along the rows inserts: row `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the rows of an `[a, b]` array of extended reals, read at row `p`: the sum of the row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] (⟨1, ![a]⟩ : Shape) src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

end Cert.Attn.Layout
-- ==== Proof.MmKernel.lean ====
/-
  The two matrix-product kernel bodies read at an entry, on the extended reals. The buffer the first body leaves
  holds at (r, q) the sum over k of x0(r, k) · x1(k, q). The buffer the second body leaves holds at (r, q) the sum
  over k of max(x0(r, k) + x1(0, k), 0) · x2(k, q): the one row x1 is added to every row of x0 before the maximum
  with zero, and narrowing to the shorter format is the identity on the extended reals.
-/
import proofs.«108973_j20822001451081_1_alg».proof.Proof.Gen.KernelIdeal.Frame
import proofs.«108973_j20822001451081_1_alg».proof.Proof.Spec
import proofs.«108973_j20822001451081_1_alg».proof.Proof.LibMatmulIx
import proofs.«108973_j20822001451081_1_alg».proof.Proof.LibLayout

noncomputable section

namespace Cert.Gcn

open Idealize.ShloMosaic Idealize.ShloMosaic.ValueIdx
open Cert.KernelIdeal Cert.KernelIdeal.Gen

/-- The offset of a rectangle that starts at the origin of a rank-2 buffer, as the constant function. -/
theorem zeros2 : (![0, 0] : Fin 2 → Nat) = fun _ => 0 := funext fun a => by fin_cases a <;> rfl

/-! ## The coordinates the two products contract: the left operand's column with the right operand's row -/

theorem k0_lhs0 (i : S2000x16.Idx) (q : dot_S2000x512_S512x16_S2000x16_1_0_0_1_n_n.contr.Idx) :
    (dot_S2000x512_S512x16_S2000x16_1_0_0_1_n_n.lhsIdx i q 0).val = (i 0).val := by
  unfold DotDims.lhsIdx
  rw [dif_neg (show ¬(0 : Fin S2000x512.rank) ∈ dot_S2000x512_S512x16_S2000x16_1_0_0_1_n_n.lhsBatch by decide), dif_pos (show (0 : Fin S2000x512.rank) ∈ dot_S2000x512_S512x16_S2000x16_1_0_0_1_n_n.lhsNonContracting by decide)]
  rfl
theorem k0_lhs1 (i : S2000x16.Idx) (q : dot_S2000x512_S512x16_S2000x16_1_0_0_1_n_n.contr.Idx) :
    (dot_S2000x512_S512x16_S2000x16_1_0_0_1_n_n.lhsIdx i q 1).val = (q ⟨0, by decide⟩).val :=
  dot_S2000x512_S512x16_S2000x16_1_0_0_1_n_n.lhsIdx_val_of_single rfl i q
theorem k0_rhs0 (i : S2000x16.Idx) (q : dot_S2000x512_S512x16_S2000x16_1_0_0_1_n_n.contr.Idx) :
    (dot_S2000x512_S512x16_S2000x16_1_0_0_1_n_n.rhsIdx i q 0).val = (q ⟨0, by decide⟩).val :=
  dot_S2000x512_S512x16_S2000x16_1_0_0_1_n_n.rhsIdx_val_of_single rfl i q
theorem k0_rhs1 (i : S2000x16.Idx) (q : dot_S2000x512_S512x16_S2000x16_1_0_0_1_n_n.contr.Idx) :
    (dot_S2000x512_S512x16_S2000x16_1_0_0_1_n_n.rhsIdx i q 1).val = (i 1).val := by
  unfold DotDims.rhsIdx
  rw [dif_neg (show ¬(1 : Fin S512x16.rank) ∈ dot_S2000x512_S512x16_S2000x16_1_0_0_1_n_n.rhsBatch by decide), dif_pos (show (1 : Fin S512x16.rank) ∈ dot_S2000x512_S512x16_S2000x16_1_0_0_1_n_n.rhsNonContracting by decide)]
  rfl

theorem k1_lhs0 (i : S10000x7.Idx) (q : dot_S10000x16_S16x7_S10000x7_1_0_0_1_n_n.contr.Idx) :
    (dot_S10000x16_S16x7_S10000x7_1_0_0_1_n_n.lhsIdx i q 0).val = (i 0).val := by
  unfold DotDims.lhsIdx
  rw [dif_neg (show ¬(0 : Fin S10000x16.rank) ∈ dot_S10000x16_S16x7_S10000x7_1_0_0_1_n_n.lhsBatch by decide), dif_pos (show (0 : Fin S10000x16.rank) ∈ dot_S10000x16_S16x7_S10000x7_1_0_0_1_n_n.lhsNonContracting by decide)]
  rfl
theorem k1_lhs1 (i : S10000x7.Idx) (q : dot_S10000x16_S16x7_S10000x7_1_0_0_1_n_n.contr.Idx) :
    (dot_S10000x16_S16x7_S10000x7_1_0_0_1_n_n.lhsIdx i q 1).val = (q ⟨0, by decide⟩).val :=
  dot_S10000x16_S16x7_S10000x7_1_0_0_1_n_n.lhsIdx_val_of_single rfl i q
theorem k1_rhs0 (i : S10000x7.Idx) (q : dot_S10000x16_S16x7_S10000x7_1_0_0_1_n_n.contr.Idx) :
    (dot_S10000x16_S16x7_S10000x7_1_0_0_1_n_n.rhsIdx i q 0).val = (q ⟨0, by decide⟩).val :=
  dot_S10000x16_S16x7_S10000x7_1_0_0_1_n_n.rhsIdx_val_of_single rfl i q
theorem k1_rhs1 (i : S10000x7.Idx) (q : dot_S10000x16_S16x7_S10000x7_1_0_0_1_n_n.contr.Idx) :
    (dot_S10000x16_S16x7_S10000x7_1_0_0_1_n_n.rhsIdx i q 1).val = (i 1).val := by
  unfold DotDims.rhsIdx
  rw [dif_neg (show ¬(1 : Fin S16x7.rank) ∈ dot_S10000x16_S16x7_S10000x7_1_0_0_1_n_n.rhsBatch by decide), dif_pos (show (1 : Fin S16x7.rank) ∈ dot_S10000x16_S16x7_S10000x7_1_0_0_1_n_n.rhsNonContracting by decide)]
  rfl

/-! ## The two bodies at an entry -/

/-- The first body's buffer at (r, q): the sum over k of x0(r, k) · x1(k, q). -/
theorem out0_2_apply (x0 : Vec Ideal Cert.KernelIdeal.S2000x512 .f32) (x1 : Vec Ideal Cert.KernelIdeal.S512x16 .f32) (r : Fin 2000) (q : Fin 16) :
    Cert.KernelIdeal.Gen.out0_2 (F := Ideal) x0 x1 (ix2 r q) = mm x0 x1 r q := by
  unfold Cert.KernelIdeal.Gen.out0_2
  rw [View.canon_unit_zero zeros2]
  simp only [View.ld_unit_zero (S := S2000x512) zeros2, View.ld_unit_zero (S := S512x16) zeros2]
  unfold Cert.KernelIdeal.Gen.k0_pay1
  refine (MatmulIx.matmul_zero_ix2 dot_S2000x512_S512x16_S2000x16_1_0_0_1_n_n rfl rfl k0_lhs0 k0_lhs1 k0_rhs0 k0_rhs1 none
    (truncf .bf16 x0 bitsLt_bf16_f32) (truncf .bf16 x1 bitsLt_bf16_f32) r q).trans ?_
  rfl

/-- The second body's buffer at (r, q): the sum over k of max(x0(r, k) + x1(0, k), 0) · x2(k, q). -/
theorem out1_3_apply (x0 : Vec Ideal Cert.KernelIdeal.S10000x16 .f32) (x1 : Vec Ideal Cert.KernelIdeal.S1x16 .f32) (x2 : Vec Ideal Cert.KernelIdeal.S16x7 .f32) (r : Fin 10000) (q : Fin 7) :
    Cert.KernelIdeal.Gen.out1_3 (F := Ideal) x0 x1 x2 (ix2 r q) = brm x0 (fun k : Fin 16 => x1 (ix2 (0 : Fin 1) k)) x2 r q := by
  unfold Cert.KernelIdeal.Gen.out1_3
  rw [View.canon_unit_zero zeros2]
  simp only [View.ld_unit_zero (S := S10000x16) zeros2, View.ld_unit_zero (S := S1x16) zeros2, View.ld_unit_zero (S := S16x7) zeros2]
  unfold Cert.KernelIdeal.Gen.k1_pay1
  refine (MatmulIx.matmul_zero_ix2 dot_S10000x16_S16x7_S10000x7_1_0_0_1_n_n rfl rfl k1_lhs0 k1_lhs1 k1_rhs0 k1_rhs1 none
    (truncf .bf16 (maximumf (addf (shapeCast S10000x16 x0 shapeCasts_S10000x16_S10000x16)
      (broadcastTo S10000x16 (shapeCast S1x16 x1 shapeCasts_S1x16_S1x16) broadcasts_S1x16_S10000x16))
      (broadcast S10000x16 (Scalar.ofBits (F := Ideal) .f32 0x00000000#32))) bitsLt_bf16_f32)
    (truncf .bf16 x2 bitsLt_bf16_f32) r q).trans ?_
  unfold brm
  refine Finset.sum_congr rfl fun k _ => ?_
  rw [truncf_apply, truncf_apply, maximumf_apply, addf_apply, broadcast_apply, shapeCast_self, shapeCast_self,
    broadcastTo_1b_ab_apply]
  show max (x0 (ix2 r k) + x1 (ix2 (0 : Fin 1) k)) (Ideal.ofBits .f32 0x00000000#32) * x2 (ix2 k q) = _
  rw [Ideal.ofBits_zero_f32]

end Cert.Gcn

end
-- ==== Proof.Region0.lean ====
/-
  The first launch: a grid of 50 points, point t taking rows 2000·t … 2000·t + 1999 of x (all 512 columns) and the whole
  of w, and writing back the same rows of the product.  Every row of the [100000, 16] result lies in exactly the block
  of point ⌊row / 2000⌋, so after the launch the result array is x · w, entry by entry.
-/
import proofs.«108973_j20822001451081_1_alg».proof.Proof.Gen.KernelIdeal.Frame
import proofs.«108973_j20822001451081_1_alg».proof.Proof.Spec
import proofs.«108973_j20822001451081_1_alg».proof.Proof.MmKernel
import Idealize.ShloMosaic.Lib.Pipeline.Value
import Idealize.ShloMosaic.Lib.ValueIdx

set_option maxRecDepth 16384

noncomputable section

namespace Cert.Gcn

open Cert.KernelIdeal Cert.KernelIdeal.Gen
open Idealize.ShloMosaic Idealize.ShloMosaic.TcCoe Idealize.ShloMosaic.ValueIdx Idealize.SL.Sem
open Idealize.ShloMosaic.Pipeline (Dat Cfg Window)

/- The buffer contents the launch is entered with: a parameter, instantiated where the program's run is read. -/
variable (V : (c : Dev nD) → (b : Ref sig .tc) → Buf (Elt Ideal) ((c : Thread nD τ).loc b))

/-- The product array: entry (p, q) is the sum over k of x(p, k) · w(k, q). -/
def G0 (X : S100000x512.Idx → EReal) (W : S512x16.Idx → EReal) : S100000x16.Idx → EReal :=
  fun i => mm X W (⟨(i 0).val, (i 0).isLt⟩ : Fin 100000) (⟨(i 1).val, (i 1).isLt⟩ : Fin 16)

/-- The windows' block indices at point t: the row block is t for x and for the result, everything else is block 0. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product array. -/
theorem flushed0 (c : Dev nD) (t : Fin cfg0.N) :
    (dat0 V c).flushed 2 t = ((cfg0.win 2).blk t).view.read (Elt Ideal) (G0 (V c main_arg0) (V c main_arg3)) := by
  show (cfg0.win 2).cut (grid0.coords t) ((dat0 V c).after 2 t) = _
  rw [after0_2]
  obtain ⟨e00, e01, e10, e11, e20, e21⟩ := idx0 t
  funext j
  obtain ⟨r, q, rfl⟩ : ∃ (r : Fin 2000) (q : Fin 16), j = ix2 r q := ⟨j 0, j 1, eq_ix2 j⟩
  show out0_2 (iblk0 V c 0 t) (iblk0 V c 1 t) (ix2 r q)
    = G0 (V c main_arg0) (V c main_arg3) (((cfg0.win 2).blk t).view.emb (ix2 r q))
  rw [out0_2_apply]
  unfold G0 mm
  refine Finset.sum_congr rfl fun k _ => ?_
  have h0 : iblk0 V c 0 t (ix2 r k)
      = V c main_arg0 (ix2 (⟨((((cfg0.win 2).blk t).view.emb (ix2 r q)) 0).val, ((((cfg0.win 2).blk t).view.emb (ix2 r q)) 0).isLt⟩ : Fin 100000) k) := by
    show V c main_arg0 (((cfg0.win 0).blk t).view.emb (ix2 r k)) = _
    refine congrArg (V c main_arg0) (funext fun a => Fin.ext ?_)
    match a with
    | ⟨0, _⟩ => show win0_0.index t (0 : Fin 2) * 2000 + 1 * r.val = win0_2.index t (0 : Fin 2) * 2000 + 1 * r.val; omega
    | ⟨1, _⟩ => show win0_0.index t (1 : Fin 2) * 512 + 1 * k.val = k.val; omega
  have h1 : iblk0 V c 1 t (ix2 k q)
      = V c main_arg3 (ix2 k (⟨((((cfg0.win 2).blk t).view.emb (ix2 r q)) 1).val, ((((cfg0.win 2).blk t).view.emb (ix2 r q)) 1).isLt⟩ : Fin 16)) := by
    show V c main_arg3 (((cfg0.win 1).blk t).view.emb (ix2 k q)) = _
    refine congrArg (V c main_arg3) (funext fun a => Fin.ext ?_)
    match a with
    | ⟨0, _⟩ => show win0_1.index t (0 : Fin 2) * 512 + 1 * k.val = k.val; omega
    | ⟨1, _⟩ => show win0_1.index t (1 : Fin 2) * 16 + 1 * q.val = win0_2.index t (1 : Fin 2) * 16 + 1 * q.val; omega
  rw [h0, h1]

/-- An index of the result array is in point t's block iff each coordinate is in the block's range on its axis. -/
theorem mem_blk0 (t : Fin cfg0.N) (i : S100000x16.Idx) :
    i ∈ ((cfg0.win 2).blk t).view.set ↔ ∀ a : Fin 2, win0_2.index t a * S2000x16.size a ≤ (i a).val ∧ (i a).val < win0_2.index t a * S2000x16.size a + S2000x16.size a := by
  show i ∈ ((View.whole main_v32).slice (win0_2.rect t)).set ↔ _
  rw [View.set_slice_whole, Rect.mem_set_unit]
  exact Iff.rfl

/-- Row p of the result lies in the block of point ⌊p / 2000⌋. -/
theorem cover0 (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : (i 0).val / 2000 < cfg0.N := by show _ < 50; omega
  obtain ⟨-, -, -, -, e20, e21⟩ := idx0 ⟨(i 0).val / 2000, hN⟩
  have e20' : win0_2.index ⟨(i 0).val / 2000, hN⟩ (0 : Fin 2) = (i 0).val / 2000 := e20
  refine ⟨⟨(i 0).val / 2000, hN⟩, flush0_2 _, ?_⟩
  rw [mem_blk0]
  intro a
  match a with
  | ⟨0, _⟩ => show win0_2.index _ (0 : Fin 2) * 2000 ≤ (i 0).val ∧ (i 0).val < win0_2.index _ (0 : Fin 2) * 2000 + 2000; omega
  | ⟨1, _⟩ => show win0_2.index _ (1 : Fin 2) * 16 ≤ (i 1).val ∧ (i 1).val < win0_2.index _ (1 : Fin 2) * 16 + 16; omega

/-- After the first launch the result array holds x · w, entry by entry. -/
theorem region0 (c : Dev nD) : (dat0 V c).arrAt 2 cfg0.N = G0 (V c main_arg0) (V c main_arg3) :=
  (dat0 V c).arrAt_eq_of_cover 2 (G0 (V c main_arg0) (V c main_arg3)) (fun t _ => flushed0 V c t) cover0

end Cert.Gcn

end
-- ==== Proof.Region1.lean ====
/-
  The second launch: a grid of 10 points, point t taking rows 10000·t … 10000·t + 9999 of the aggregated array A
  (all 16 columns), the whole bias row β and the whole of w, and writing back the same rows of max(A + β, 0) · w.
  Every row of the [100000, 7] result lies in exactly the block of point ⌊row / 10000⌋.
-/
import proofs.«108973_j20822001451081_1_alg».proof.Proof.Gen.KernelIdeal.Frame
import proofs.«108973_j20822001451081_1_alg».proof.Proof.Spec
import proofs.«108973_j20822001451081_1_alg».proof.Proof.MmKernel
import Idealize.ShloMosaic.Lib.Pipeline.Value
import Idealize.ShloMosaic.Lib.ValueIdx

set_option maxRecDepth 16384

noncomputable section

namespace Cert.Gcn

open Cert.KernelIdeal Cert.KernelIdeal.Gen
open Idealize.ShloMosaic Idealize.ShloMosaic.TcCoe Idealize.ShloMosaic.ValueIdx Idealize.SL.Sem
open Idealize.ShloMosaic.Pipeline (Dat Cfg Window)

/- The buffer contents the launch is entered with: a parameter, instantiated where the program's run is read. -/
variable (V : (c : Dev nD) → (b : Ref sig .tc) → Buf (Elt Ideal) ((c : Thread nD τ).loc b))

/-- The result array: entry (p, q) is the sum over k of max(A(p, k) + β(0, k), 0) · w(k, q). -/
def G1 (A : S100000x16.Idx → EReal) (β : S1x16.Idx → EReal) (W : S16x7.Idx → EReal) : S100000x7.Idx → EReal :=
  fun i => brm A (fun k : Fin 16 => β (ix2 (0 : Fin 1) k)) W (⟨(i 0).val, (i 0).isLt⟩ : Fin 100000) (⟨(i 1).val, (i 1).isLt⟩ : Fin 7)

/-- The windows' block indices at point t: the row block is t for A and for the result, everything else is block 0. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the result array. -/
theorem flushed1 (c : Dev nD) (t : Fin cfg1.N) :
    (dat1 V c).flushed 3 t = ((cfg1.win 3).blk t).view.read (Elt Ideal) (G1 (V c main_v45) (V c main_v46) (V c main_arg5)) := by
  show (cfg1.win 3).cut (grid1.coords t) ((dat1 V c).after 3 t) = _
  rw [after1_3]
  obtain ⟨e00, e01, e10, e11, e20, e21, e30, e31⟩ := idx1 t
  funext j
  obtain ⟨r, q, rfl⟩ : ∃ (r : Fin 10000) (q : Fin 7), j = ix2 r q := ⟨j 0, j 1, eq_ix2 j⟩
  show out1_3 (iblk1 V c 0 t) (iblk1 V c 1 t) (iblk1 V c 2 t) (ix2 r q)
    = G1 (V c main_v45) (V c main_v46) (V c main_arg5) (((cfg1.win 3).blk t).view.emb (ix2 r q))
  rw [out1_3_apply]
  unfold G1 brm
  refine Finset.sum_congr rfl fun k _ => ?_
  have h0 : iblk1 V c 0 t (ix2 r k)
      = V c main_v45 (ix2 (⟨((((cfg1.win 3).blk t).view.emb (ix2 r q)) 0).val, ((((cfg1.win 3).blk t).view.emb (ix2 r q)) 0).isLt⟩ : Fin 100000) k) := by
    show V c main_v45 (((cfg1.win 0).blk t).view.emb (ix2 r k)) = _
    refine congrArg (V c main_v45) (funext fun a => Fin.ext ?_)
    match a with
    | ⟨0, _⟩ => show win1_0.index t (0 : Fin 2) * 10000 + 1 * r.val = win1_3.index t (0 : Fin 2) * 10000 + 1 * r.val; omega
    | ⟨1, _⟩ => show win1_0.index t (1 : Fin 2) * 16 + 1 * k.val = k.val; omega
  have h1 : iblk1 V c 1 t (ix2 (0 : Fin 1) k) = V c main_v46 (ix2 (0 : Fin 1) k) := by
    show V c main_v46 (((cfg1.win 1).blk t).view.emb (ix2 (0 : Fin 1) k)) = _
    refine congrArg (V c main_v46) (funext fun a => Fin.ext ?_)
    match a with
    | ⟨0, _⟩ => show win1_1.index t (0 : Fin 2) * 1 + 1 * 0 = 0; omega
    | ⟨1, _⟩ => show win1_1.index t (1 : Fin 2) * 16 + 1 * k.val = k.val; omega
  have h2 : iblk1 V c 2 t (ix2 k q)
      = V c main_arg5 (ix2 k (⟨((((cfg1.win 3).blk t).view.emb (ix2 r q)) 1).val, ((((cfg1.win 3).blk t).view.emb (ix2 r q)) 1).isLt⟩ : Fin 7)) := by
    show V c main_arg5 (((cfg1.win 2).blk t).view.emb (ix2 k q)) = _
    refine congrArg (V c main_arg5) (funext fun a => Fin.ext ?_)
    match a with
    | ⟨0, _⟩ => show win1_2.index t (0 : Fin 2) * 16 + 1 * k.val = k.val; omega
    | ⟨1, _⟩ => show win1_2.index t (1 : Fin 2) * 7 + 1 * q.val = win1_3.index t (1 : Fin 2) * 7 + 1 * q.val; omega
  beta_reduce
  rw [h0, h1, h2]

/-- An index of the result array is in point t's block iff each coordinate is in the block's range on its axis. -/
theorem mem_blk1 (t : Fin cfg1.N) (i : S100000x7.Idx) :
    i ∈ ((cfg1.win 3).blk t).view.set ↔ ∀ a : Fin 2, win1_3.index t a * S10000x7.size a ≤ (i a).val ∧ (i a).val < win1_3.index t a * S10000x7.size a + S10000x7.size a := by
  show i ∈ ((View.whole main_v47).slice (win1_3.rect t)).set ↔ _
  rw [View.set_slice_whole, Rect.mem_set_unit]
  exact Iff.rfl

/-- Row p of the result lies in the block of point ⌊p / 10000⌋. -/
theorem cover1 (i : S100000x7.Idx) :
    ∃ t : Fin cfg1.N, (cfg1.win 3).flush t = true ∧ i ∈ ((cfg1.win 3).blk t).view.set := by
  have hi0 : (i 0).val < 100000 := (i 0).isLt
  have hi1 : (i 1).val < 7 := (i 1).isLt
  have hN : (i 0).val / 10000 < cfg1.N := by show _ < 10; omega
  obtain ⟨-, -, -, -, -, -, e30, e31⟩ := idx1 ⟨(i 0).val / 10000, hN⟩
  have e30' : win1_3.index ⟨(i 0).val / 10000, hN⟩ (0 : Fin 2) = (i 0).val / 10000 := e30
  refine ⟨⟨(i 0).val / 10000, hN⟩, flush1_3 _, ?_⟩
  rw [mem_blk1]
  intro a
  match a with
  | ⟨0, _⟩ => show win1_3.index _ (0 : Fin 2) * 10000 ≤ (i 0).val ∧ (i 0).val < win1_3.index _ (0 : Fin 2) * 10000 + 10000; omega
  | ⟨1, _⟩ => show win1_3.index _ (1 : Fin 2) * 7 ≤ (i 1).val ∧ (i 1).val < win1_3.index _ (1 : Fin 2) * 7 + 7; omega

/-- After the second launch the result array holds max(A + β, 0) · w, entry by entry. -/
theorem region1 (c : Dev nD) : (dat1 V c).arrAt 3 cfg1.N = G1 (V c main_v45) (V c main_v46) (V c main_arg5) :=
  (dat1 V c).arrAt_eq_of_cover 3 (G1 (V c main_v45) (V c main_v46) (V c main_arg5)) (fun t _ => flushed1 V c t) cover1

end Cert.Gcn

end
-- ==== Proof.LibLay3.lean ====
/-
  Readings, at an index given by coordinates, of the layout operations a normalisation over the last axis of a
  rank-three array and a split of a matrix's rows into groups produce; and a row maximum read as a fold.
-/
import Idealize.ShloMosaic.Lib.ValueLayout
import Idealize.ShloMosaic.PureOps.Ideal.Laws
import proofs.«108973_j20822001451081_1_alg».proof.Proof.LibLayout

namespace Cert.GQA.Lay

open Idealize.ShloMosaic Idealize.ShloMosaic.ValueIdx

variable {α : Type}

/-- Rows `0 … c - 1` with `c = a · b` split into `a` groups of `b`: entry `(p, q, k)` is entry `(p · b + q, k)` of the matrix. -/
theorem shapeCast_cd_abd_apply {a b c d : ℕ} (x : (⟨2, ![c, d]⟩ : Shape).Idx → α)
    (h : (⟨2, ![c, d]⟩ : Shape).ShapeCasts ⟨3, ![a, b, d]⟩) (p : Fin a) (q : Fin b) (k : Fin d) (r : Fin c)
    (hr : r.val = p.val * b + q.val) : shapeCast ⟨3, ![a, b, d]⟩ x h (ix3 p q k) = x (ix2 r k) :=
  shapeCast_apply x h _ _ (by
    rw [Shape.rowMajor_val_two, Shape.rowMajor_val_three]
    show r.val * d + k.val = (p.val * b + q.val) * d + k.val
    rw [hr])

/-- A rank-three array cut along its leading axis from `o` reads, at `(j, a, e)`, the source at `(o + j, a, e)`. -/
theorem slice3_axis0_apply {n0 n1 n2 m : ℕ} (o : ℕ) (X : (⟨3, ![n0, n1, n2]⟩ : Shape).Idx → α)
    (h : (⟨3, ![n0, n1, n2]⟩ : Shape).Slices ![o, 0, 0] ⟨3, ![m, n1, n2]⟩)
    (j : Fin m) (a : Fin n1) (e : Fin n2) (k : Fin n0) (hk : k.val = o + j.val) :
    extractStridedSlice ⟨3, ![m, n1, n2]⟩ ![o, 0, 0] X h (ix3 j a e) = X (ix3 k a e) :=
  extractStridedSlice_apply _ _ _ _ _ (fun ax => by
    match ax with
    | ⟨0, _⟩ => exact hk
    | ⟨1, _⟩ => exact (Nat.zero_add _).symm
    | ⟨2, _⟩ => exact (Nat.zero_add _).symm)

/-- A matrix given a trailing unit axis: entry `(p, q, u)` is entry `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- A trailing unit axis broadcast: entry `(p, q, k)` of the `[a, b, d]` array is entry `(p, q, 0)` of the `[a, b, 1]` one. -/
theorem broadcastTo_ab1_abd_apply {a b d : ℕ} (v : (⟨3, ![a, b, 1]⟩ : Shape).Idx → α)
    (h : (⟨3, ![a, b, 1]⟩ : Shape).Broadcasts ⟨3, ![a, b, d]⟩) (p : Fin a) (q : Fin b) (k : Fin d) :
    broadcastTo ⟨3, ![a, b, d]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A vector given two leading unit axes: entry `(u, v, k)` is entry `k`. -/
theorem shapeCast_d_11d_apply {d : ℕ} (x : (⟨1, ![d]⟩ : Shape).Idx → α)
    (h : (⟨1, ![d]⟩ : Shape).ShapeCasts ⟨3, ![1, 1, d]⟩) (u v : Fin 1) (k : Fin d) :
    shapeCast ⟨3, ![1, 1, d]⟩ x h (ix3 u v k) = x (ix1 k) :=
  shapeCast_apply x h _ _ (by
    have hu : u.val = 0 := by omega
    have hv : v.val = 0 := by omega
    rw [Shape.rowMajor_val_one, Shape.rowMajor_val_three]
    show k.val = (u.val * 1 + v.val) * d + k.val
    rw [hu, hv]; simp)

/-- Two leading unit axes broadcast: entry `(p, q, k)` of the `[a, b, d]` array is entry `(0, 0, k)` of the `[1, 1, d]` one. -/
theorem broadcastTo_11d_abd_apply {a b d : ℕ} (v : (⟨3, ![1, 1, d]⟩ : Shape).Idx → α)
    (h : (⟨3, ![1, 1, d]⟩ : Shape).Broadcasts ⟨3, ![a, b, d]⟩) (p : Fin a) (q : Fin b) (k : Fin d) :
    broadcastTo ⟨3, ![a, b, d]⟩ v h (ix3 p q k) = v (ix3 (0 : Fin 1) (0 : Fin 1) k) := by
  refine broadcastTo_apply v h (ix3 p q k) (ix3 (0 : Fin 1) (0 : Fin 1) k) fun ax => ?_
  match ax with
  | ⟨0, _⟩ => rfl
  | ⟨1, _⟩ => rfl
  | ⟨2, _⟩ =>
    show k.val = if d = 1 then 0 else k.val
    split
    · have := k.isLt; omega
    · rfl

/-- The largest entry of row `p` of an `[a, b]` array of extended reals, taken from the accumulator's value: the fold
    of `max` over the row's entries. -/
theorem rowMax_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] (⟨1, ![a]⟩ : Shape) src acc h hφ hacc (ix1 p)
      = (Finset.univ : Finset (Fin b)).fold max (Ideal.ofBits .f32 acc) (fun k => src (ix2 p k)) := by
  refine (Ideal.multiReduction_maximumf_single src acc h hφ hacc (ix1 p)).trans ?_
  exact congrArg (Finset.fold max (Ideal.ofBits .f32 acc) · (Finset.univ : Finset (Fin b)))
    (funext fun k => congrArg src (Cert.Attn.Layout.lift_row h p k))

end Cert.GQA.Lay
-- ==== Proof.LibRowLsm.lean ====
/-
  Row-wise log-softmax in the form shifted by the row maximum, on the extended reals:
  entry (p, q) of an [a, b] array Y goes to  (Y p q - M p) - log (∑ k, exp (Y p k - M p)),  M p the largest entry of row p
  (the fold of max from ⊥ over the row). The vector unit's spelling of it (two lane reductions, their results cast to a
  column and broadcast along the rows) and the host's spelling (two reductions over axis 1, a further max against a
  splat of -∞, two broadcasts each) both read, at an entry, as that expression.
-/
import Idealize.ShloMosaic.Lib.ValueIdx
import Idealize.ShloMosaic.Lib.ValueLayout
import Idealize.ShloMosaic.Lib.Pipeline.Value
import Idealize.ShloMosaic.PureOps.Ideal.Laws
import proofs.«108973_j20822001451081_1_alg».proof.Proof.LibLayout
import proofs.«108973_j20822001451081_1_alg».proof.Proof.LibLay3

noncomputable section

namespace Cert.RowLsm

open Idealize.ShloMosaic Idealize.ShloMosaic.ValueIdx

/-- The largest entry of row `p`, taken from `⊥`. -/
def rowMax {a b : ℕ} (Y : (⟨2, ![a, b]⟩ : Shape).Idx → EReal) (p : Fin a) : EReal :=
  (Finset.univ : Finset (Fin b)).fold max ⊥ (fun k => Y (ix2 p k))

/-- Log-softmax of row `p` at column `q`, shifted by the row's largest entry. -/
def lsm {a b : ℕ} (Y : (⟨2, ![a, b]⟩ : Shape).Idx → EReal) (p : Fin a) (q : Fin b) : EReal :=
  (Y (ix2 p q) - rowMax Y p) - Ideal.log (∑ k : Fin b, Ideal.exp (Y (ix2 p k) - rowMax Y p))

/-- The float pattern of -∞ is `⊥`. -/
theorem ofBits_neg_inf : Ideal.ofBits .f32 0xFF800000#32 = ⊥ := by simp [Ideal.ofBits, Ideal.ieee]

/-- The vector unit's row maximum, cast to a column and broadcast along the rows, is `rowMax` at every entry of the row. -/
theorem vec_rowMax {a b : ℕ} (v : FVec Ideal ⟨2, ![a, b]⟩ .f32)
    (hred : (⟨2, ![a, b]⟩ : Shape).Reduces [1] (⟨1, ![a]⟩ : Shape)) (hφ : FKind.Formats .f32)
    (hmax : (0xFF800000#32 : BitVec 32) = FKind.maximumf.neutral .f32 hφ)
    (hcast : (⟨1, ![a]⟩ : Shape).ShapeCasts ⟨2, ![a, 1]⟩)
    (hbc : (⟨2, ![a, 1]⟩ : Shape).Broadcasts ⟨2, ![a, b]⟩) (p : Fin a) (c : Fin b) :
    broadcastTo ⟨2, ![a, b]⟩ (shapeCast ⟨2, ![a, 1]⟩
      (multiReduction .maximumf [1] (⟨1, ![a]⟩ : Shape) v 0xFF800000#32 hred hφ hmax) hcast) hbc (ix2 p c) = rowMax v p := by
  rw [Cert.Attn.Layout.broadcastTo_a1_ab_apply, Cert.Attn.Layout.shapeCast_a_a1_apply, Cert.GQA.Lay.rowMax_apply,
    ofBits_neg_inf]
  rfl

/-- THE VECTOR UNIT'S SPELLING at an entry. -/
theorem vec_lsm {a b : ℕ} (v : FVec Ideal ⟨2, ![a, b]⟩ .f32)
    (hred : (⟨2, ![a, b]⟩ : Shape).Reduces [1] (⟨1, ![a]⟩ : Shape)) (hφ : FKind.Formats .f32)
    (hmax : (0xFF800000#32 : BitVec 32) = FKind.maximumf.neutral .f32 hφ)
    (hadd : (0x00000000#32 : BitVec 32) = FKind.add.neutral .f32 hφ)
    (hcast : (⟨1, ![a]⟩ : Shape).ShapeCasts ⟨2, ![a, 1]⟩)
    (hbc : (⟨2, ![a, 1]⟩ : Shape).Broadcasts ⟨2, ![a, b]⟩) (p : Fin a) (q : Fin b) :
    subf (subf v (broadcastTo ⟨2, ![a, b]⟩ (shapeCast ⟨2, ![a, 1]⟩
        (multiReduction .maximumf [1] (⟨1, ![a]⟩ : Shape) v 0xFF800000#32 hred hφ hmax) hcast) hbc))
      (broadcastTo ⟨2, ![a, b]⟩ (log (shapeCast ⟨2, ![a, 1]⟩
        (multiReduction .add [1] (⟨1, ![a]⟩ : Shape)
          (exp (subf v (broadcastTo ⟨2, ![a, b]⟩ (shapeCast ⟨2, ![a, 1]⟩
            (multiReduction .maximumf [1] (⟨1, ![a]⟩ : Shape) v 0xFF800000#32 hred hφ hmax) hcast) hbc)))
          0x00000000#32 hred hφ hadd) hcast)) hbc) (ix2 p q)
      = lsm v p q := by
  rw [subf_apply, subf_apply, vec_rowMax, Cert.Attn.Layout.broadcastTo_a1_ab_apply]
  show _ - Ideal.log (shapeCast ⟨2, ![a, 1]⟩ _ hcast (ix2 p (0 : Fin 1))) = _
  rw [Cert.Attn.Layout.shapeCast_a_a1_apply, Cert.Attn.Layout.rowSum_apply]
  unfold lsm
  refine congrArg (fun s => (v (ix2 p q) - rowMax v p) - Ideal.log s) (Finset.sum_congr rfl fun k _ => ?_)
  show Ideal.exp (v (ix2 p k) - _) = _
  rw [vec_rowMax]

end Cert.RowLsm

end
-- ==== Proof.LsmKernel.lean ====
/-
  The third kernel body at an entry. The body adds the [1, 7] row β to every row of the [10000, 7] block A, takes each
  row's largest entry (from -∞, and once more against a splat of -∞, which changes nothing: max ⊥ x = x), subtracts it,
  and subtracts the logarithm of the row's sum of exponentials: entry (r, q) of what it stores is the log-softmax, shifted
  by the row maximum, of the row k ↦ A(r, k) + β(0, k), at column q.
-/
import proofs.«108973_j20822001451081_1_alg».proof.Proof.Gen.KernelIdeal.Frame
import proofs.«108973_j20822001451081_1_alg».proof.Proof.Spec
import proofs.«108973_j20822001451081_1_alg».proof.Proof.LibRowLsm

noncomputable section

namespace Cert.Gcn

open Idealize.ShloMosaic Idealize.ShloMosaic.ValueIdx

/-- The row maximum taken from -∞, then once more against a splat of -∞, cast to a column and broadcast along the rows:
    at every entry of row p it is the fold of max from ⊥ over the row (max ⊥ x = x). -/
theorem vec_rowMax_bot {a b : ℕ} (v : FVec Ideal ⟨2, ![a, b]⟩ .f32)
    (hred : (⟨2, ![a, b]⟩ : Shape).Reduces [1] (⟨1, ![a]⟩ : Shape)) (hφ : FKind.Formats .f32)
    (hmax : (0xFF800000#32 : BitVec 32) = FKind.maximumf.neutral .f32 hφ)
    (hcast : (⟨1, ![a]⟩ : Shape).ShapeCasts ⟨2, ![a, 1]⟩)
    (hbc : (⟨2, ![a, 1]⟩ : Shape).Broadcasts ⟨2, ![a, b]⟩) (p : Fin a) (c : Fin b) :
    broadcastTo ⟨2, ![a, b]⟩ (shapeCast ⟨2, ![a, 1]⟩
      (maximumf (broadcast (⟨1, ![a]⟩ : Shape) (Scalar.ofBits (F := Ideal) .f32 0xFF800000#32))
        (multiReduction .maximumf [1] (⟨1, ![a]⟩ : Shape) v 0xFF800000#32 hred hφ hmax)) hcast) hbc (ix2 p c)
      = Cert.RowLsm.rowMax v p := by
  rw [Cert.Attn.Layout.broadcastTo_a1_ab_apply, Cert.Attn.Layout.shapeCast_a_a1_apply, maximumf_apply, broadcast_apply,
    Cert.GQA.Lay.rowMax_apply]
  show max (Ideal.ofBits .f32 0xFF800000#32) _ = _
  rw [Cert.RowLsm.ofBits_neg_inf, max_bot_left]
  rfl

/-- The vector unit's log-softmax with the extra maximum against a splat of -∞, at an entry. -/
theorem vec_lsm_bot {a b : ℕ} (v : FVec Ideal ⟨2, ![a, b]⟩ .f32)
    (hred : (⟨2, ![a, b]⟩ : Shape).Reduces [1] (⟨1, ![a]⟩ : Shape)) (hφ : FKind.Formats .f32)
    (hmax : (0xFF800000#32 : BitVec 32) = FKind.maximumf.neutral .f32 hφ)
    (hadd : (0x00000000#32 : BitVec 32) = FKind.add.neutral .f32 hφ)
    (hcast : (⟨1, ![a]⟩ : Shape).ShapeCasts ⟨2, ![a, 1]⟩)
    (hbc : (⟨2, ![a, 1]⟩ : Shape).Broadcasts ⟨2, ![a, b]⟩) (p : Fin a) (q : Fin b) :
    subf (subf v (broadcastTo ⟨2, ![a, b]⟩ (shapeCast ⟨2, ![a, 1]⟩
        (maximumf (broadcast (⟨1, ![a]⟩ : Shape) (Scalar.ofBits (F := Ideal) .f32 0xFF800000#32))
          (multiReduction .maximumf [1] (⟨1, ![a]⟩ : Shape) v 0xFF800000#32 hred hφ hmax)) hcast) hbc))
      (broadcastTo ⟨2, ![a, b]⟩ (log (shapeCast ⟨2, ![a, 1]⟩
        (multiReduction .add [1] (⟨1, ![a]⟩ : Shape)
          (exp (subf v (broadcastTo ⟨2, ![a, b]⟩ (shapeCast ⟨2, ![a, 1]⟩
            (maximumf (broadcast (⟨1, ![a]⟩ : Shape) (Scalar.ofBits (F := Ideal) .f32 0xFF800000#32))
              (multiReduction .maximumf [1] (⟨1, ![a]⟩ : Shape) v 0xFF800000#32 hred hφ hmax)) hcast) hbc)))
          0x00000000#32 hred hφ hadd) hcast)) hbc) (ix2 p q)
      = Cert.RowLsm.lsm v p q := by
  rw [subf_apply, subf_apply, vec_rowMax_bot, Cert.Attn.Layout.broadcastTo_a1_ab_apply]
  show _ - Ideal.log (shapeCast ⟨2, ![a, 1]⟩ _ hcast (ix2 p (0 : Fin 1))) = _
  rw [Cert.Attn.Layout.shapeCast_a_a1_apply, Cert.Attn.Layout.rowSum_apply]
  unfold Cert.RowLsm.lsm
  refine congrArg (fun s => (v (ix2 p q) - Cert.RowLsm.rowMax v p) - Ideal.log s) (Finset.sum_congr rfl fun k _ => ?_)
  show Ideal.exp (v (ix2 p k) - _) = _
  rw [vec_rowMax_bot]

/-- The offsets of the whole-buffer rectangle are zero. -/
theorem hz2 : (![0, 0] : Fin 2 → Nat) = fun _ => 0 := funext fun a => by fin_cases a <;> rfl

/-- Entry (r, q) of what the third kernel body leaves in its output buffer: the shifted log-softmax of row r of A + β. -/
theorem out2_2_apply (x0 : Vec Ideal Cert.KernelIdeal.S10000x7 .f32) (x1 : Vec Ideal Cert.KernelIdeal.S1x7 .f32)
    (r : Fin 10000) (q : Fin 7) :
    Cert.KernelIdeal.Gen.out2_2 (F := Ideal) x0 x1 (ix2 r q)
      = lsmRow (fun k : Fin 7 => x0 (ix2 r k) + x1 (ix2 (0 : Fin 1) k)) q := by
  unfold Cert.KernelIdeal.Gen.out2_2
  rw [View.canon_unit_zero hz2]
  simp only [View.ld_unit_zero (S := Cert.KernelIdeal.S10000x7) hz2, View.ld_unit_zero (S := Cert.KernelIdeal.S1x7) hz2]
  unfold Cert.KernelIdeal.Gen.k2_pay1
  simp only [shapeCast_self]
  refine (vec_lsm_bot _ _ _ _ _ _ _ r q).trans ?_
  unfold Cert.RowLsm.lsm Cert.RowLsm.rowMax lsmRow
  simp only [addf_apply, broadcastTo_1b_ab_apply]

end Cert.Gcn

end
-- ==== Proof.Region2.lean ====
/-
  The third launch: a grid of 10 points, point t taking rows 10000·t … 10000·t + 9999 of the aggregated array A (all 7
  columns) and the whole bias row β, and writing back the same rows of the row-wise log-softmax of A + β.  An entry of the
  result depends on its own row of A only, and every row lies in exactly the block of point ⌊row / 10000⌋.
-/
import proofs.«108973_j20822001451081_1_alg».proof.Proof.Gen.KernelIdeal.Frame
import proofs.«108973_j20822001451081_1_alg».proof.Proof.Spec
import proofs.«108973_j20822001451081_1_alg».proof.Proof.LsmKernel
import Idealize.ShloMosaic.Lib.Pipeline.Value
import Idealize.ShloMosaic.Lib.ValueIdx

set_option maxRecDepth 16384

noncomputable section

namespace Cert.Gcn

open Cert.KernelIdeal Cert.KernelIdeal.Gen
open Idealize.ShloMosaic Idealize.ShloMosaic.TcCoe Idealize.ShloMosaic.ValueIdx Idealize.SL.Sem
open Idealize.ShloMosaic.Pipeline (Dat Cfg Window)

/- The buffer contents the launch is entered with: a parameter, instantiated where the program's run is read. -/
variable (V : (c : Dev nD) → (b : Ref sig .tc) → Buf (Elt Ideal) ((c : Thread nD τ).loc b))

/-- The result array: entry (p, q) is the log-softmax, at column q, of the row k ↦ A(p, k) + β(0, k). -/
def G2 (A : S100000x7.Idx → EReal) (β : S1x7.Idx → EReal) : S100000x7.Idx → EReal :=
  fun i => lsmRow (fun k : Fin 7 => A (ix2 (⟨(i 0).val, (i 0).isLt⟩ : Fin 100000) k) + β (ix2 (0 : Fin 1) k)) (⟨(i 1).val, (i 1).isLt⟩ : Fin 7)

/-- The windows' block indices at point t: the row block is t for A and for the result, everything else is block 0. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the result array. -/
theorem flushed2 (c : Dev nD) (t : Fin cfg2.N) :
    (dat2 V c).flushed 2 t = ((cfg2.win 2).blk t).view.read (Elt Ideal) (G2 (V c main_v60) (V c main_v61)) := by
  show (cfg2.win 2).cut (grid2.coords t) ((dat2 V c).after 2 t) = _
  rw [after2_2]
  obtain ⟨e00, e01, e10, e11, e20, e21⟩ := idx2 t
  funext j
  obtain ⟨r, q, rfl⟩ : ∃ (r : Fin 10000) (q : Fin 7), j = ix2 r q := ⟨j 0, j 1, eq_ix2 j⟩
  show out2_2 (iblk2 V c 0 t) (iblk2 V c 1 t) (ix2 r q)
    = G2 (V c main_v60) (V c main_v61) (((cfg2.win 2).blk t).view.emb (ix2 r q))
  rw [out2_2_apply]
  unfold G2
  have hq : (⟨((((cfg2.win 2).blk t).view.emb (ix2 r q)) 1).val, ((((cfg2.win 2).blk t).view.emb (ix2 r q)) 1).isLt⟩ : Fin 7) = q := by
    apply Fin.ext
    show win2_2.index t (1 : Fin 2) * 7 + 1 * q.val = q.val
    omega
  rw [hq]
  refine congrArg (fun y => lsmRow y q) (funext fun k => ?_)
  have h0 : iblk2 V c 0 t (ix2 r k)
      = V c main_v60 (ix2 (⟨((((cfg2.win 2).blk t).view.emb (ix2 r q)) 0).val, ((((cfg2.win 2).blk t).view.emb (ix2 r q)) 0).isLt⟩ : Fin 100000) k) := by
    show V c main_v60 (((cfg2.win 0).blk t).view.emb (ix2 r k)) = _
    refine congrArg (V c main_v60) (funext fun a => Fin.ext ?_)
    match a with
    | ⟨0, _⟩ => show win2_0.index t (0 : Fin 2) * 10000 + 1 * r.val = win2_2.index t (0 : Fin 2) * 10000 + 1 * r.val; omega
    | ⟨1, _⟩ => show win2_0.index t (1 : Fin 2) * 7 + 1 * k.val = k.val; omega
  have h1 : iblk2 V c 1 t (ix2 (0 : Fin 1) k) = V c main_v61 (ix2 (0 : Fin 1) k) := by
    show V c main_v61 (((cfg2.win 1).blk t).view.emb (ix2 (0 : Fin 1) k)) = _
    refine congrArg (V c main_v61) (funext fun a => Fin.ext ?_)
    match a with
    | ⟨0, _⟩ => show win2_1.index t (0 : Fin 2) * 1 + 1 * 0 = 0; omega
    | ⟨1, _⟩ => show win2_1.index t (1 : Fin 2) * 7 + 1 * k.val = k.val; omega
  beta_reduce
  rw [h0, h1]

/-- An index of the result array is in point t's block iff each coordinate is in the block's range on its axis. -/
theorem mem_blk2 (t : Fin cfg2.N) (i : S100000x7.Idx) :
    i ∈ ((cfg2.win 2).blk t).view.set ↔ ∀ a : Fin 2, win2_2.index t a * S10000x7.size a ≤ (i a).val ∧ (i a).val < win2_2.index t a * S10000x7.size a + S10000x7.size a := by
  show i ∈ ((View.whole main_v62).slice (win2_2.rect t)).set ↔ _
  rw [View.set_slice_whole, Rect.mem_set_unit]
  exact Iff.rfl

/-- Row p of the result lies in the block of point ⌊p / 10000⌋. -/
theorem cover2 (i : S100000x7.Idx) :
    ∃ t : Fin cfg2.N, (cfg2.win 2).flush t = true ∧ i ∈ ((cfg2.win 2).blk t).view.set := by
  have hi0 : (i 0).val < 100000 := (i 0).isLt
  have hi1 : (i 1).val < 7 := (i 1).isLt
  have hN : (i 0).val / 10000 < cfg2.N := by show _ < 10; omega
  obtain ⟨-, -, -, -, e20, e21⟩ := idx2 ⟨(i 0).val / 10000, hN⟩
  have e20' : win2_2.index ⟨(i 0).val / 10000, hN⟩ (0 : Fin 2) = (i 0).val / 10000 := e20
  refine ⟨⟨(i 0).val / 10000, hN⟩, flush2_2 _, ?_⟩
  rw [mem_blk2]
  intro a
  match a with
  | ⟨0, _⟩ => show win2_2.index _ (0 : Fin 2) * 10000 ≤ (i 0).val ∧ (i 0).val < win2_2.index _ (0 : Fin 2) * 10000 + 10000; omega
  | ⟨1, _⟩ => show win2_2.index _ (1 : Fin 2) * 7 ≤ (i 1).val ∧ (i 1).val < win2_2.index _ (1 : Fin 2) * 7 + 7; omega

/-- After the third launch the result array holds the row-wise log-softmax of A + β, entry by entry. -/
theorem region2 (c : Dev nD) : (dat2 V c).arrAt 2 cfg2.N = G2 (V c main_v60) (V c main_v61) :=
  (dat2 V c).arrAt_eq_of_cover 2 (G2 (V c main_v60) (V c main_v61)) (fun t _ => flushed2 V c t) cover2

end Cert.Gcn

end
-- ==== Proof.KernelValue.lean ====
/-
  The contents of the idealized kernel program's buffers at the boundaries between its host stretches and its three
  launches, walked back to the launch memory: the edge structure after the first three stretches, the product after
  the first launch, its aggregation and the bias row before the second launch, and so on to the result after the third
  launch — the row-wise log-softmax of the second aggregation plus the second bias.
-/
import proofs.«108973_j20822001451081_1_alg».proof.Proof.KernelHost
import proofs.«108973_j20822001451081_1_alg».proof.Proof.Region0
import proofs.«108973_j20822001451081_1_alg».proof.Proof.Region1
import proofs.«108973_j20822001451081_1_alg».proof.Proof.Region2

set_option maxRecDepth 16384

noncomputable section

namespace Cert.Gcn

open Cert.KernelIdeal Cert.KernelIdeal.Gen Cert.Gcn.KHost Idealize.ShloMosaic Idealize.ShloMosaic.TcCoe Idealize.SL.Sem

variable (m : (ℓ : Loc nD τ sig) → Buf (Elt Ideal) ℓ) (ρ : Dev nD → PrngReg) (c : Dev nD)

/-! ## After the first stretch -/
theorem w1_v5 : W1 m ρ c (Proc.devRef .tc main_v5) = (srcK (m ((c : Thread nD τ).loc main_arg1))) := s0_v5 (W0 m ρ c)
theorem w1_v6 : W1 m ρ c (Proc.devRef .tc main_v6) = (dstK (m ((c : Thread nD τ).loc main_arg1))) := s0_v6 (W0 m ρ c)
theorem w1_v8 : W1 m ρ c (Proc.devRef .tc main_v8) = wK (m ((c : Thread nD τ).loc main_arg2)) := s0_v8 (W0 m ρ c)
theorem w1_v13 : W1 m ρ c (Proc.devRef .tc main_v13) = cmpf .ogt (degK (m ((c : Thread nD τ).loc main_arg1)) (m ((c : Thread nD τ).loc main_arg2))) (broadcastInDim S100000 ![] Cert.KernelIdeal.Facts₀.bcast_S_S100000 (constant S_ .f32 0x00000000#32)) := s0_v13 (W0 m ρ c)
theorem w1_v14 : W1 m ρ c (Proc.devRef .tc main_v14) = Host.rsqrt (degK (m ((c : Thread nD τ).loc main_arg1)) (m ((c : Thread nD τ).loc main_arg2))) := s0_v14 (W0 m ρ c)
theorem w1_cst_2 : W1 m ρ c (Proc.devRef .tc main_cst_2) = constant (F := Ideal) S_ .f32 0x00000000#32 := s0_cst_2 (W0 m ρ c)
theorem w1_arg0 : W1 m ρ c (Proc.devRef .tc main_arg0) = (m ((c : Thread nD τ).loc main_arg0)) := k0_arg0 (W0 m ρ c)
theorem w1_arg3 : W1 m ρ c (Proc.devRef .tc main_arg3) = (m ((c : Thread nD τ).loc main_arg3)) := k0_arg3 (W0 m ρ c)
theorem w1_arg4 : W1 m ρ c (Proc.devRef .tc main_arg4) = (m ((c : Thread nD τ).loc main_arg4)) := k0_arg4 (W0 m ρ c)
theorem w1_arg5 : W1 m ρ c (Proc.devRef .tc main_arg5) = (m ((c : Thread nD τ).loc main_arg5)) := k0_arg5 (W0 m ρ c)
theorem w1_arg6 : W1 m ρ c (Proc.devRef .tc main_arg6) = (m ((c : Thread nD τ).loc main_arg6)) := k0_arg6 (W0 m ρ c)

/-! ## After the second stretch -/
theorem w2_v15 : W2 m ρ c (Proc.devRef .tc main_v15) = dinvK (m ((c : Thread nD τ).loc main_arg1)) (m ((c : Thread nD τ).loc main_arg2)) :=
  (s01_v15 (W1 m ρ c)).trans (by rw [w1_v13, w1_v14, w1_cst_2]; rfl)
theorem w2_v5 : W2 m ρ c (Proc.devRef .tc main_v5) = (srcK (m ((c : Thread nD τ).loc main_arg1))) := (k01_v5 (W1 m ρ c)).trans (w1_v5 m ρ c)
theorem w2_v6 : W2 m ρ c (Proc.devRef .tc main_v6) = (dstK (m ((c : Thread nD τ).loc main_arg1))) := (k01_v6 (W1 m ρ c)).trans (w1_v6 m ρ c)
theorem w2_v8 : W2 m ρ c (Proc.devRef .tc main_v8) = (wK (m ((c : Thread nD τ).loc main_arg2))) := (k01_v8 (W1 m ρ c)).trans (w1_v8 m ρ c)
theorem w2_arg0 : W2 m ρ c (Proc.devRef .tc main_arg0) = (m ((c : Thread nD τ).loc main_arg0)) := (k01_arg0 (W1 m ρ c)).trans (w1_arg0 m ρ c)
theorem w2_arg3 : W2 m ρ c (Proc.devRef .tc main_arg3) = (m ((c : Thread nD τ).loc main_arg3)) := (k01_arg3 (W1 m ρ c)).trans (w1_arg3 m ρ c)
theorem w2_arg4 : W2 m ρ c (Proc.devRef .tc main_arg4) = (m ((c : Thread nD τ).loc main_arg4)) := (k01_arg4 (W1 m ρ c)).trans (w1_arg4 m ρ c)
theorem w2_arg5 : W2 m ρ c (Proc.devRef .tc main_arg5) = (m ((c : Thread nD τ).loc main_arg5)) := (k01_arg5 (W1 m ρ c)).trans (w1_arg5 m ρ c)
theorem w2_arg6 : W2 m ρ c (Proc.devRef .tc main_arg6) = (m ((c : Thread nD τ).loc main_arg6)) := (k01_arg6 (W1 m ρ c)).trans (w1_arg6 m ρ c)

/-! ## After the third stretch: what the first launch is entered with -/
theorem w3_v31 : W3 m ρ c (Proc.devRef .tc main_v31) = (normK (m ((c : Thread nD τ).loc main_arg1)) (m ((c : Thread nD τ).loc main_arg2))) :=
  (s02_v31 (W2 m ρ c)).trans (by rw [w2_v15, w2_v5, w2_v8, w2_v6]; rfl)
theorem w3_v5 : W3 m ρ c (Proc.devRef .tc main_v5) = (srcK (m ((c : Thread nD τ).loc main_arg1))) := (k02_v5 (W2 m ρ c)).trans (w2_v5 m ρ c)
theorem w3_v6 : W3 m ρ c (Proc.devRef .tc main_v6) = (dstK (m ((c : Thread nD τ).loc main_arg1))) := (k02_v6 (W2 m ρ c)).trans (w2_v6 m ρ c)
theorem w3_arg0 : W3 m ρ c (Proc.devRef .tc main_arg0) = (m ((c : Thread nD τ).loc main_arg0)) := (k02_arg0 (W2 m ρ c)).trans (w2_arg0 m ρ c)
theorem w3_arg3 : W3 m ρ c (Proc.devRef .tc main_arg3) = (m ((c : Thread nD τ).loc main_arg3)) := (k02_arg3 (W2 m ρ c)).trans (w2_arg3 m ρ c)
theorem w3_arg4 : W3 m ρ c (Proc.devRef .tc main_arg4) = (m ((c : Thread nD τ).loc main_arg4)) := (k02_arg4 (W2 m ρ c)).trans (w2_arg4 m ρ c)
theorem w3_arg5 : W3 m ρ c (Proc.devRef .tc main_arg5) = (m ((c : Thread nD τ).loc main_arg5)) := (k02_arg5 (W2 m ρ c)).trans (w2_arg5 m ρ c)
theorem w3_arg6 : W3 m ρ c (Proc.devRef .tc main_arg6) = (m ((c : Thread nD τ).loc main_arg6)) := (k02_arg6 (W2 m ρ c)).trans (w2_arg6 m ρ c)

/-! ## After the first launch -/
theorem w4_v32 : W4 m ρ c (Proc.devRef .tc main_v32) = (G0 (m ((c : Thread nD τ).loc main_arg0)) (m ((c : Thread nD τ).loc main_arg3))) :=
  (W4_arr m ρ c 2).trans ((region0 (V3 m ρ) c).trans (congrArg₂ G0 (w3_arg0 m ρ c) (w3_arg3 m ρ c)))
theorem w4_v5 : W4 m ρ c (Proc.devRef .tc main_v5) = (srcK (m ((c : Thread nD τ).loc main_arg1))) := (W4_of_ne m ρ c main_v5 (by decide)).trans (w3_v5 m ρ c)
theorem w4_v6 : W4 m ρ c (Proc.devRef .tc main_v6) = (dstK (m ((c : Thread nD τ).loc main_arg1))) := (W4_of_ne m ρ c main_v6 (by decide)).trans (w3_v6 m ρ c)
theorem w4_v31 : W4 m ρ c (Proc.devRef .tc main_v31) = (normK (m ((c : Thread nD τ).loc main_arg1)) (m ((c : Thread nD τ).loc main_arg2))) := (W4_of_ne m ρ c main_v31 (by decide)).trans (w3_v31 m ρ c)
theorem w4_arg4 : W4 m ρ c (Proc.devRef .tc main_arg4) = (m ((c : Thread nD τ).loc main_arg4)) := (W4_of_ne m ρ c main_arg4 (by decide)).trans (w3_arg4 m ρ c)
theorem w4_arg5 : W4 m ρ c (Proc.devRef .tc main_arg5) = (m ((c : Thread nD τ).loc main_arg5)) := (W4_of_ne m ρ c main_arg5 (by decide)).trans (w3_arg5 m ρ c)
theorem w4_arg6 : W4 m ρ c (Proc.devRef .tc main_arg6) = (m ((c : Thread nD τ).loc main_arg6)) := (W4_of_ne m ρ c main_arg6 (by decide)).trans (w3_arg6 m ρ c)

/-! ## Before the second launch -/
theorem w5_v45 : W5 m ρ c (Proc.devRef .tc main_v45) = (agg16 (F := Ideal) (srcK (m ((c : Thread nD τ).loc main_arg1))) (dstK (m ((c : Thread nD τ).loc main_arg1))) (normK (m ((c : Thread nD τ).loc main_arg1)) (m ((c : Thread nD τ).loc main_arg2))) (G0 (m ((c : Thread nD τ).loc main_arg0)) (m ((c : Thread nD τ).loc main_arg3)))) :=
  (s1_v45 (W4 m ρ c)).trans (by rw [w4_v5, w4_v6, w4_v31, w4_v32])
theorem w5_v46 : W5 m ρ c (Proc.devRef .tc main_v46) = (shapeCast S1x16 (m ((c : Thread nD τ).loc main_arg4)) Cert.KernelIdeal.Facts₀.shapeCasts_S16_S1x16) :=
  (s1_v46 (W4 m ρ c)).trans (by rw [w4_arg4])
theorem w5_v5 : W5 m ρ c (Proc.devRef .tc main_v5) = (srcK (m ((c : Thread nD τ).loc main_arg1))) := (k1_v5 (W4 m ρ c)).trans (w4_v5 m ρ c)
theorem w5_v6 : W5 m ρ c (Proc.devRef .tc main_v6) = (dstK (m ((c : Thread nD τ).loc main_arg1))) := (k1_v6 (W4 m ρ c)).trans (w4_v6 m ρ c)
theorem w5_v31 : W5 m ρ c (Proc.devRef .tc main_v31) = (normK (m ((c : Thread nD τ).loc main_arg1)) (m ((c : Thread nD τ).loc main_arg2))) := (k1_v31 (W4 m ρ c)).trans (w4_v31 m ρ c)
theorem w5_arg5 : W5 m ρ c (Proc.devRef .tc main_arg5) = (m ((c : Thread nD τ).loc main_arg5)) := (k1_arg5 (W4 m ρ c)).trans (w4_arg5 m ρ c)
theorem w5_arg6 : W5 m ρ c (Proc.devRef .tc main_arg6) = (m ((c : Thread nD τ).loc main_arg6)) := (k1_arg6 (W4 m ρ c)).trans (w4_arg6 m ρ c)

/-! ## After the second launch -/
theorem w6_v47 : W6 m ρ c (Proc.devRef .tc main_v47) = (G1 (agg16 (F := Ideal) (srcK (m ((c : Thread nD τ).loc main_arg1))) (dstK (m ((c : Thread nD τ).loc main_arg1))) (normK (m ((c : Thread nD τ).loc main_arg1)) (m ((c : Thread nD τ).loc main_arg2))) (G0 (m ((c : Thread nD τ).loc main_arg0)) (m ((c : Thread nD τ).loc main_arg3)))) (shapeCast S1x16 (m ((c : Thread nD τ).loc main_arg4)) Cert.KernelIdeal.Facts₀.shapeCasts_S16_S1x16) (m ((c : Thread nD τ).loc main_arg5))) :=
  (W6_arr m ρ c 3).trans ((region1 (V5 m ρ) c).trans (by
    show G1 (W5 m ρ c (Proc.devRef .tc main_v45)) (W5 m ρ c (Proc.devRef .tc main_v46)) (W5 m ρ c (Proc.devRef .tc main_arg5)) = _
    rw [w5_v45, w5_v46, w5_arg5]))
theorem w6_v5 : W6 m ρ c (Proc.devRef .tc main_v5) = (srcK (m ((c : Thread nD τ).loc main_arg1))) := (W6_of_ne m ρ c main_v5 (by decide)).trans (w5_v5 m ρ c)
theorem w6_v6 : W6 m ρ c (Proc.devRef .tc main_v6) = (dstK (m ((c : Thread nD τ).loc main_arg1))) := (W6_of_ne m ρ c main_v6 (by decide)).trans (w5_v6 m ρ c)
theorem w6_v31 : W6 m ρ c (Proc.devRef .tc main_v31) = (normK (m ((c : Thread nD τ).loc main_arg1)) (m ((c : Thread nD τ).loc main_arg2))) := (W6_of_ne m ρ c main_v31 (by decide)).trans (w5_v31 m ρ c)
theorem w6_arg6 : W6 m ρ c (Proc.devRef .tc main_arg6) = (m ((c : Thread nD τ).loc main_arg6)) := (W6_of_ne m ρ c main_arg6 (by decide)).trans (w5_arg6 m ρ c)

/-! ## Before the third launch -/
theorem w7_v60 : W7 m ρ c (Proc.devRef .tc main_v60) = (agg7 (F := Ideal) (srcK (m ((c : Thread nD τ).loc main_arg1))) (dstK (m ((c : Thread nD τ).loc main_arg1))) (normK (m ((c : Thread nD τ).loc main_arg1)) (m ((c : Thread nD τ).loc main_arg2))) (G1 (agg16 (F := Ideal) (srcK (m ((c : Thread nD τ).loc main_arg1))) (dstK (m ((c : Thread nD τ).loc main_arg1))) (normK (m ((c : Thread nD τ).loc main_arg1)) (m ((c : Thread nD τ).loc main_arg2))) (G0 (m ((c : Thread nD τ).loc main_arg0)) (m ((c : Thread nD τ).loc main_arg3)))) (shapeCast S1x16 (m ((c : Thread nD τ).loc main_arg4)) Cert.KernelIdeal.Facts₀.shapeCasts_S16_S1x16) (m ((c : Thread nD τ).loc main_arg5)))) :=
  (s2_v60 (W6 m ρ c)).trans (by rw [w6_v5, w6_v6, w6_v31, w6_v47])
theorem w7_v61 : W7 m ρ c (Proc.devRef .tc main_v61) = (shapeCast S1x7 (m ((c : Thread nD τ).loc main_arg6)) Cert.KernelIdeal.Facts₀.shapeCasts_S7_S1x7) :=
  (s2_v61 (W6 m ρ c)).trans (by rw [w6_arg6])

/-! ## After the third launch: the result -/
/-- The result buffer's final contents: the row-wise log-softmax of the second aggregation plus the second bias, the
    second aggregation taken of max(first aggregation + first bias, 0) · W2, the first of x · W1. -/
theorem kernel_value : W8 m ρ c (Proc.devRef .tc main_v62) = G2 (agg7 (F := Ideal) (srcK (m ((c : Thread nD τ).loc main_arg1))) (dstK (m ((c : Thread nD τ).loc main_arg1))) (normK (m ((c : Thread nD τ).loc main_arg1)) (m ((c : Thread nD τ).loc main_arg2))) (G1 (agg16 (F := Ideal) (srcK (m ((c : Thread nD τ).loc main_arg1))) (dstK (m ((c : Thread nD τ).loc main_arg1))) (normK (m ((c : Thread nD τ).loc main_arg1)) (m ((c : Thread nD τ).loc main_arg2))) (G0 (m ((c : Thread nD τ).loc main_arg0)) (m ((c : Thread nD τ).loc main_arg3)))) (shapeCast S1x16 (m ((c : Thread nD τ).loc main_arg4)) Cert.KernelIdeal.Facts₀.shapeCasts_S16_S1x16) (m ((c : Thread nD τ).loc main_arg5)))) (shapeCast S1x7 (m ((c : Thread nD τ).loc main_arg6)) Cert.KernelIdeal.Facts₀.shapeCasts_S7_S1x7) :=
  (W8_arr m ρ c 2).trans ((region2 (V7 m ρ) c).trans (by
    show G2 (W7 m ρ c (Proc.devRef .tc main_v60)) (W7 m ρ c (Proc.devRef .tc main_v61)) = _
    rw [w7_v60, w7_v61]))

end Cert.Gcn

end
-- ==== Proof.MmRef.lean ====
/-
  The reference program's two matrix products read at an entry, on the extended reals. Its first product holds at
  (p, q) the sum over k of x0(p, k) · x3(k, q). Its second product holds at (p, q) the sum over k of
  max(A(p, k) + x4(k), 0) · x5(k, q), where A is the array the product's left operand is built from: the vector x4
  is laid out as one row, repeated along the rows, added to A, and the maximum with the zero constant is taken.
-/
import proofs.«108973_j20822001451081_1_alg».proof.Proof.RefRead
import proofs.«108973_j20822001451081_1_alg».proof.Proof.Spec
import proofs.«108973_j20822001451081_1_alg».proof.Proof.LibMatmulIx

noncomputable section

namespace Cert.Gcn

open Idealize.ShloMosaic Idealize.ShloMosaic.ValueIdx
open Cert.ReferenceIdeal Cert.ReferenceIdeal.ReadP

/-- The first product at (p, q): the sum over k of x0(p, k) · x3(k, q). -/
theorem ref_mm1_apply (x0 : (⟨S100000x512, .f32⟩ : BufTy).Contents (Elt Ideal)) (x3 : (⟨S512x16, .f32⟩ : BufTy).Contents (Elt Ideal)) (p : Fin 100000) (q : Fin 16) :
    val_main_v0 (F := Ideal) x0 x3 (ix2 p q) = mm x0 x3 p q := by
  rw [val_main_v0_apply]
  unfold mm
  refine Finset.sum_congr rfl fun k _ => ?_
  have el : lidx_main_v0 (ix2 p q) k = ix2 p k := funext fun a => Fin.ext (by
    match a with
    | ⟨0, _⟩ => rfl
    | ⟨1, _⟩ => rfl)
  have er : ridx_main_v0 (ix2 p q) k = ix2 k q := funext fun a => Fin.ext (by
    match a with
    | ⟨0, _⟩ => rfl
    | ⟨1, _⟩ => rfl)
  rw [el, er]

/-- The second product at (p, q): the sum over k of max(A(p, k) + x4(k), 0) · x5(k, q), A the array its left
    operand adds the row to. -/
theorem ref_mm2_apply (x0 : (⟨S100000x512, .f32⟩ : BufTy).Contents (Elt Ideal)) (x1 : (⟨S2x3200000, .i32⟩ : BufTy).Contents (Elt Ideal)) (x2 : (⟨S3200000, .f32⟩ : BufTy).Contents (Elt Ideal)) (x3 : (⟨S512x16, .f32⟩ : BufTy).Contents (Elt Ideal)) (x4 : (⟨S16, .f32⟩ : BufTy).Contents (Elt Ideal)) (x5 : (⟨S16x7, .f32⟩ : BufTy).Contents (Elt Ideal)) (p : Fin 100000) (q : Fin 7) :
    val_main_v50 (F := Ideal) x0 x1 x2 x3 x4 x5 (ix2 p q) = brm (val_main_v45 (F := Ideal) x0 x1 x2 x3) (fun k : Fin 16 => x4 (ix1 k)) x5 p q := by
  rw [val_main_v50_apply]
  unfold brm
  refine Finset.sum_congr rfl fun k _ => ?_
  have el : lidx_main_v50 (ix2 p q) k = ix2 p k := funext fun a => Fin.ext (by
    match a with
    | ⟨0, _⟩ => rfl
    | ⟨1, _⟩ => rfl)
  have er : ridx_main_v50 (ix2 p q) k = ix2 k q := funext fun a => Fin.ext (by
    match a with
    | ⟨0, _⟩ => rfl
    | ⟨1, _⟩ => rfl)
  have e4 : idx_main_v46 (idx_main_v47 (ix2 p k)) = ix1 k := funext fun a => Fin.ext (by
    match a with
    | ⟨0, _⟩ => rfl)
  rw [el, er, val_main_v49_apply, val_main_v48_apply, val_main_call1_v0_apply, val_main_call1_cst_apply,
    val_main_v47_apply, val_main_v46_apply, e4]
  generalize val_main_v45 (F := Ideal) x0 x1 x2 x3 = A
  show max (A (ix2 p k) + x4 (ix1 k)) (Ideal.ofBits .f32 0x00000000#32) * x5 (ix2 k q) = _
  rw [Ideal.ofBits_zero_f32]

end Cert.Gcn

end
-- ==== Proof.LsmRef.lean ====
/-
  The reference's last two stages at an entry. Its log-softmax subtracts from each entry of the [100000, 7] array Y the
  largest entry of its row (a fold of max from -∞, then once more against a splat of -∞: max ⊥ x = x) and then the logarithm
  of the row's sum of exponentials (0 + the sum): entry (p, q) is the shifted log-softmax of row p of Y at column q.
  Y itself is the preceding array with the vector of 7 entries added along every row.
-/
import proofs.«108973_j20822001451081_1_alg».proof.Proof.RefRead
import proofs.«108973_j20822001451081_1_alg».proof.Proof.Spec
import proofs.«108973_j20822001451081_1_alg».proof.Proof.LibRowLsm

noncomputable section

namespace Cert.Gcn

open Idealize.ShloMosaic Idealize.ShloMosaic.ValueIdx
open Cert.ReferenceIdeal Cert.ReferenceIdeal.ReadP

/-- The host's reduction with a maximum body along the rows of an [a, b] array, from an initial value that is -∞:
    at row p it is the fold of max from ⊥ over the row's entries. -/
theorem host_rowMax {a b : ℕ} (Y : FVec Ideal ⟨2, ![a, b]⟩ .f32) (init : (⟨0, ![]⟩ : Shape).Idx → Ideal .f32)
    (hinit : ∀ i, init i = ⊥)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduce FloatOps.maximumf Y init h' hu (ix1 p)
      = (Finset.univ : Finset (Fin b)).fold max ⊥ (fun k => Y (ix2 p k)) := by
  rw [Host.reduce_eq_fold_single FloatOps.maximumf Y init h' h hu, hinit]
  exact congrArg (Finset.fold max ⊥ · (Finset.univ : Finset (Fin b)))
    (funext fun k => congrArg Y (Cert.Attn.Layout.lift_row h p k))

/-- Entry (p, q) of the reference's log-softmax: the shifted log-softmax of row p of the array before it. -/
theorem ref_lsm_apply (x0 : (⟨S100000x512, .f32⟩ : BufTy).Contents (Elt Ideal)) (x1 : (⟨S2x3200000, .i32⟩ : BufTy).Contents (Elt Ideal))
    (x2 : (⟨S3200000, .f32⟩ : BufTy).Contents (Elt Ideal)) (x3 : (⟨S512x16, .f32⟩ : BufTy).Contents (Elt Ideal))
    (x4 : (⟨S16, .f32⟩ : BufTy).Contents (Elt Ideal)) (x5 : (⟨S16x7, .f32⟩ : BufTy).Contents (Elt Ideal))
    (x6 : (⟨S7, .f32⟩ : BufTy).Contents (Elt Ideal))
    (p : Fin 100000) (q : Fin 7) :
    val_main_v99 (F := Ideal) x0 x1 x2 x3 x4 x5 x6 (ix2 p q)
      = lsmRow (fun k : Fin 7 => val_main_v98 (F := Ideal) x0 x1 x2 x3 x4 x5 x6 (ix2 p k)) q := by
  have h : S100000x7.Reduces [1] S100000 := by decide
  have hrow : ∀ q' : Fin 7, idx_main_call3_v3 (idx_main_call3_v4 (ix2 p q')) = ix1 p := fun q' =>
    funext fun a => by match a with | ⟨0, _⟩ => rfl
  have hcol : ∀ k : Fin 7, idx_main_call3_v7 (idx_main_call3_v8 (idx_main_call3_v10 (ix2 p q))) k = ix2 p k := fun k =>
    funext fun a => by match a with | ⟨0, _⟩ => rfl | ⟨1, _⟩ => rfl
  -- the row's largest entry, as the reference takes it
  have hM : val_main_call3_v2 (F := Ideal) x0 x1 x2 x3 x4 x5 x6 (ix1 p)
      = (Finset.univ : Finset (Fin 7)).fold max ⊥ (fun k => val_main_v98 (F := Ideal) x0 x1 x2 x3 x4 x5 x6 (ix2 p k)) := by
    rw [val_main_call3_v2_apply, val_main_call3_v1_apply, val_main_call3_cst_0_apply]
    unfold val_main_call3_v0
    generalize val_main_v98 (F := Ideal) x0 x1 x2 x3 x4 x5 x6 = Y
    show max (Ideal.ofBits .f32 0xFF800000#32) _ = _
    rw [Cert.RowLsm.ofBits_neg_inf, max_bot_left]
    exact host_rowMax Y _ (fun _ => Cert.RowLsm.ofBits_neg_inf) _ h _ p
  -- an entry of the row with the largest entry subtracted
  have h5 : ∀ q' : Fin 7, val_main_call3_v5 (F := Ideal) x0 x1 x2 x3 x4 x5 x6 (ix2 p q')
      = val_main_v98 (F := Ideal) x0 x1 x2 x3 x4 x5 x6 (ix2 p q')
        - (Finset.univ : Finset (Fin 7)).fold max ⊥ (fun k => val_main_v98 (F := Ideal) x0 x1 x2 x3 x4 x5 x6 (ix2 p k)) := fun q' => by
    rw [val_main_call3_v5_apply, val_main_call3_v4_apply, val_main_call3_v3_apply, hrow, hM]
    rfl
  -- the row's sum of exponentials
  have hsum : (∑ k : Fin 7, val_main_call3_v6 (F := Ideal) x0 x1 x2 x3 x4 x5 x6
        (idx_main_call3_v7 (idx_main_call3_v8 (idx_main_call3_v10 (ix2 p q))) k))
      = ∑ k : Fin 7, Ideal.exp (val_main_v98 (F := Ideal) x0 x1 x2 x3 x4 x5 x6 (ix2 p k)
          - (Finset.univ : Finset (Fin 7)).fold max ⊥ (fun k => val_main_v98 (F := Ideal) x0 x1 x2 x3 x4 x5 x6 (ix2 p k))) :=
    Finset.sum_congr rfl fun k _ => by
      rw [hcol k, val_main_call3_v6_apply, h5, Ideal.hostUnary_exp_def]
  rw [val_main_v99_apply, h5, val_main_call3_v10_apply, val_main_call3_v9_apply, val_main_call3_v8_apply,
    val_main_call3_v7_apply, val_main_call3_cst_1_apply, hsum]
  generalize val_main_v98 (F := Ideal) x0 x1 x2 x3 x4 x5 x6 = Y
  unfold lsmRow
  show (_ - _) - Ideal.log (Ideal.ofBits .f32 0x00000000#32 + _) = _
  rw [Ideal.ofBits_zero_f32, zero_add]

/-- Entry (p, k) of the array the log-softmax is taken of: the preceding array's entry plus entry k of the vector added
    along every row. -/
theorem ref_bias2_apply (x0 : (⟨S100000x512, .f32⟩ : BufTy).Contents (Elt Ideal)) (x1 : (⟨S2x3200000, .i32⟩ : BufTy).Contents (Elt Ideal))
    (x2 : (⟨S3200000, .f32⟩ : BufTy).Contents (Elt Ideal)) (x3 : (⟨S512x16, .f32⟩ : BufTy).Contents (Elt Ideal))
    (x4 : (⟨S16, .f32⟩ : BufTy).Contents (Elt Ideal)) (x5 : (⟨S16x7, .f32⟩ : BufTy).Contents (Elt Ideal))
    (x6 : (⟨S7, .f32⟩ : BufTy).Contents (Elt Ideal))
    (p : Fin 100000) (k : Fin 7) :
    val_main_v98 (F := Ideal) x0 x1 x2 x3 x4 x5 x6 (ix2 p k)
      = val_main_v95 (F := Ideal) x0 x1 x2 x3 x4 x5 (ix2 p k) + x6 (ix1 k) := by
  have hk : idx_main_v96 (idx_main_v97 (ix2 p k)) = ix1 k := funext fun a => by match a with | ⟨0, _⟩ => rfl
  rw [val_main_v98_apply, val_main_v97_apply, val_main_v96_apply, hk]
  rfl

end Cert.Gcn

end
-- ==== Proof.ValueEq.lean ====
/-
  The two programs compute the same array. The reference's stages, read one after another: the product x0 · x3; the
  aggregation of its rows along the edges; the product of max(· + x4, 0) with x5; the aggregation again; the row x6 added
  and the log-softmax of every row. The launches compute the three dense stages (entry by entry the same sums, the same
  maxima and the same shifted log-softmax), and the aggregation between them is the same function of the same operands in
  both programs: the reference's stage functions unfold to it.
-/
import proofs.«108973_j20822001451081_1_alg».proof.Proof.Region0
import proofs.«108973_j20822001451081_1_alg».proof.Proof.Region1
import proofs.«108973_j20822001451081_1_alg».proof.Proof.Region2
import proofs.«108973_j20822001451081_1_alg».proof.Proof.HostFns
import proofs.«108973_j20822001451081_1_alg».proof.Proof.MmRef
import proofs.«108973_j20822001451081_1_alg».proof.Proof.LsmRef
import proofs.«108973_j20822001451081_1_alg».proof.Proof.RefRead

noncomputable section

namespace Cert.Gcn

open Cert.ReferenceIdeal.ReadP Idealize.ShloMosaic Idealize.ShloMosaic.ValueIdx

/-! ## The reference's aggregation stages are the aggregation function of their operands -/

section AnyInstance
variable {F : FTy → Type} [FloatOps F]

set_option maxHeartbeats 400000 in
/-- The sources of the edges, self-loops appended, as the reference's first layer builds them. -/
theorem v6_eq (x1 : (⟨Cert.ReferenceIdeal.S2x3200000, .i32⟩ : BufTy).Contents (Elt F)) : val_main_v6 (F := F) x1 = srcK x1 := rfl

set_option maxHeartbeats 400000 in
/-- The destinations likewise. -/
theorem v7_eq (x1 : (⟨Cert.ReferenceIdeal.S2x3200000, .i32⟩ : BufTy).Contents (Elt F)) : val_main_v7 (F := F) x1 = dstK x1 := rfl

set_option maxHeartbeats 400000 in
/-- The edges' coefficients as the reference's first layer computes them. -/
theorem v32_eq (x1 : (⟨Cert.ReferenceIdeal.S2x3200000, .i32⟩ : BufTy).Contents (Elt F)) (x2 : (⟨Cert.ReferenceIdeal.S3200000, .f32⟩ : BufTy).Contents (Elt F)) :
    val_main_v32 (F := F) x1 x2 = normK x1 x2 := rfl

set_option maxHeartbeats 400000 in
/-- The first aggregation: the aggregation function of the edge structure and the first product. -/
theorem v45_raw (x0 : (⟨Cert.ReferenceIdeal.S100000x512, .f32⟩ : BufTy).Contents (Elt F)) (x1 : (⟨Cert.ReferenceIdeal.S2x3200000, .i32⟩ : BufTy).Contents (Elt F))
    (x2 : (⟨Cert.ReferenceIdeal.S3200000, .f32⟩ : BufTy).Contents (Elt F)) (x3 : (⟨Cert.ReferenceIdeal.S512x16, .f32⟩ : BufTy).Contents (Elt F)) :
    val_main_v45 (F := F) x0 x1 x2 x3
      = agg16 (val_main_v6 (F := F) x1) (val_main_v7 (F := F) x1) (val_main_v32 (F := F) x1 x2) (val_main_v0 (F := F) x0 x3) := rfl

/-- The same over the edge structure's own names. -/
theorem v45_eq (x0 : (⟨Cert.ReferenceIdeal.S100000x512, .f32⟩ : BufTy).Contents (Elt F)) (x1 : (⟨Cert.ReferenceIdeal.S2x3200000, .i32⟩ : BufTy).Contents (Elt F))
    (x2 : (⟨Cert.ReferenceIdeal.S3200000, .f32⟩ : BufTy).Contents (Elt F)) (x3 : (⟨Cert.ReferenceIdeal.S512x16, .f32⟩ : BufTy).Contents (Elt F)) :
    val_main_v45 (F := F) x0 x1 x2 x3 = agg16 (srcK x1) (dstK x1) (normK x1 x2) (val_main_v0 (F := F) x0 x3) := by
  rw [v45_raw, v6_eq, v7_eq, v32_eq]

set_option maxHeartbeats 400000 in
/-- The second layer builds the same sources again. -/
theorem v56_eq (x1 : (⟨Cert.ReferenceIdeal.S2x3200000, .i32⟩ : BufTy).Contents (Elt F)) : val_main_v56 (F := F) x1 = srcK x1 := rfl

set_option maxHeartbeats 400000 in
/-- … the same destinations … -/
theorem v57_eq (x1 : (⟨Cert.ReferenceIdeal.S2x3200000, .i32⟩ : BufTy).Contents (Elt F)) : val_main_v57 (F := F) x1 = dstK x1 := rfl

set_option maxHeartbeats 400000 in
/-- … and the same coefficients. -/
theorem v82_eq (x1 : (⟨Cert.ReferenceIdeal.S2x3200000, .i32⟩ : BufTy).Contents (Elt F)) (x2 : (⟨Cert.ReferenceIdeal.S3200000, .f32⟩ : BufTy).Contents (Elt F)) :
    val_main_v82 (F := F) x1 x2 = normK x1 x2 := rfl

set_option maxHeartbeats 400000 in
/-- The second aggregation: the aggregation function of the edge structure and the second product. -/
theorem v95_raw (x0 : (⟨Cert.ReferenceIdeal.S100000x512, .f32⟩ : BufTy).Contents (Elt F)) (x1 : (⟨Cert.ReferenceIdeal.S2x3200000, .i32⟩ : BufTy).Contents (Elt F))
    (x2 : (⟨Cert.ReferenceIdeal.S3200000, .f32⟩ : BufTy).Contents (Elt F)) (x3 : (⟨Cert.ReferenceIdeal.S512x16, .f32⟩ : BufTy).Contents (Elt F))
    (x4 : (⟨Cert.ReferenceIdeal.S16, .f32⟩ : BufTy).Contents (Elt F)) (x5 : (⟨Cert.ReferenceIdeal.S16x7, .f32⟩ : BufTy).Contents (Elt F)) :
    val_main_v95 (F := F) x0 x1 x2 x3 x4 x5
      = agg7 (val_main_v56 (F := F) x1) (val_main_v57 (F := F) x1) (val_main_v82 (F := F) x1 x2)
          (val_main_v50 (F := F) x0 x1 x2 x3 x4 x5) := rfl

/-- The same over the edge structure's own names. -/
theorem v95_eq (x0 : (⟨Cert.ReferenceIdeal.S100000x512, .f32⟩ : BufTy).Contents (Elt F)) (x1 : (⟨Cert.ReferenceIdeal.S2x3200000, .i32⟩ : BufTy).Contents (Elt F))
    (x2 : (⟨Cert.ReferenceIdeal.S3200000, .f32⟩ : BufTy).Contents (Elt F)) (x3 : (⟨Cert.ReferenceIdeal.S512x16, .f32⟩ : BufTy).Contents (Elt F))
    (x4 : (⟨Cert.ReferenceIdeal.S16, .f32⟩ : BufTy).Contents (Elt F)) (x5 : (⟨Cert.ReferenceIdeal.S16x7, .f32⟩ : BufTy).Contents (Elt F)) :
    val_main_v95 (F := F) x0 x1 x2 x3 x4 x5
      = agg7 (srcK x1) (dstK x1) (normK x1 x2) (val_main_v50 (F := F) x0 x1 x2 x3 x4 x5) := by
  rw [v95_raw, v56_eq, v57_eq, v82_eq]

end AnyInstance

/-! ## The dense stages, entry by entry -/

/-- The first launch's array is the reference's first product. -/
theorem g0_eq (x0 : (⟨Cert.ReferenceIdeal.S100000x512, .f32⟩ : BufTy).Contents (Elt Ideal)) (x3 : (⟨Cert.ReferenceIdeal.S512x16, .f32⟩ : BufTy).Contents (Elt Ideal)) :
    G0 x0 x3 = val_main_v0 (F := Ideal) x0 x3 := by
  funext i
  obtain ⟨p, q, rfl⟩ : ∃ (p : Fin 100000) (q : Fin 16), i = ix2 p q := ⟨i 0, i 1, eq_ix2 i⟩
  rw [ref_mm1_apply]
  rfl

/-- The first aggregation of the first launch's array is the reference's. -/
theorem agg16_eq (x0 : (⟨Cert.ReferenceIdeal.S100000x512, .f32⟩ : BufTy).Contents (Elt Ideal)) (x1 : (⟨Cert.ReferenceIdeal.S2x3200000, .i32⟩ : BufTy).Contents (Elt Ideal))
    (x2 : (⟨Cert.ReferenceIdeal.S3200000, .f32⟩ : BufTy).Contents (Elt Ideal)) (x3 : (⟨Cert.ReferenceIdeal.S512x16, .f32⟩ : BufTy).Contents (Elt Ideal)) :
    agg16 (F := Ideal) (srcK x1) (dstK x1) (normK x1 x2) (G0 x0 x3) = val_main_v45 (F := Ideal) x0 x1 x2 x3 := by
  rw [g0_eq, v45_eq]

/-- The second launch's array, of the reference's first aggregation, is the reference's second product. -/
theorem g1_eq (x0 : (⟨Cert.ReferenceIdeal.S100000x512, .f32⟩ : BufTy).Contents (Elt Ideal)) (x1 : (⟨Cert.ReferenceIdeal.S2x3200000, .i32⟩ : BufTy).Contents (Elt Ideal))
    (x2 : (⟨Cert.ReferenceIdeal.S3200000, .f32⟩ : BufTy).Contents (Elt Ideal)) (x3 : (⟨Cert.ReferenceIdeal.S512x16, .f32⟩ : BufTy).Contents (Elt Ideal))
    (x4 : (⟨Cert.ReferenceIdeal.S16, .f32⟩ : BufTy).Contents (Elt Ideal)) (x5 : (⟨Cert.ReferenceIdeal.S16x7, .f32⟩ : BufTy).Contents (Elt Ideal)) :
    G1 (val_main_v45 (F := Ideal) x0 x1 x2 x3)
        (shapeCast Cert.KernelIdeal.S1x16 x4 Cert.KernelIdeal.Facts₀.shapeCasts_S16_S1x16) x5
      = val_main_v50 (F := Ideal) x0 x1 x2 x3 x4 x5 := by
  funext i
  obtain ⟨p, q, rfl⟩ : ∃ (p : Fin 100000) (q : Fin 7), i = ix2 p q := ⟨i 0, i 1, eq_ix2 i⟩
  rw [ref_mm2_apply]
  generalize val_main_v45 (F := Ideal) x0 x1 x2 x3 = A
  unfold G1
  simp only [shapeCast_a_1a_apply]

/-- The second aggregation of the second launch's array is the reference's. -/
theorem agg7_eq (x0 : (⟨Cert.ReferenceIdeal.S100000x512, .f32⟩ : BufTy).Contents (Elt Ideal)) (x1 : (⟨Cert.ReferenceIdeal.S2x3200000, .i32⟩ : BufTy).Contents (Elt Ideal))
    (x2 : (⟨Cert.ReferenceIdeal.S3200000, .f32⟩ : BufTy).Contents (Elt Ideal)) (x3 : (⟨Cert.ReferenceIdeal.S512x16, .f32⟩ : BufTy).Contents (Elt Ideal))
    (x4 : (⟨Cert.ReferenceIdeal.S16, .f32⟩ : BufTy).Contents (Elt Ideal)) (x5 : (⟨Cert.ReferenceIdeal.S16x7, .f32⟩ : BufTy).Contents (Elt Ideal)) :
    agg7 (F := Ideal) (srcK x1) (dstK x1) (normK x1 x2)
        (G1 (agg16 (F := Ideal) (srcK x1) (dstK x1) (normK x1 x2) (G0 x0 x3))
          (shapeCast Cert.KernelIdeal.S1x16 x4 Cert.KernelIdeal.Facts₀.shapeCasts_S16_S1x16) x5)
      = val_main_v95 (F := Ideal) x0 x1 x2 x3 x4 x5 := by
  rw [agg16_eq, g1_eq, v95_eq]

/-- The third launch's array, of the reference's second aggregation, is the reference's result. -/
theorem g2_eq (x0 : (⟨Cert.ReferenceIdeal.S100000x512, .f32⟩ : BufTy).Contents (Elt Ideal)) (x1 : (⟨Cert.ReferenceIdeal.S2x3200000, .i32⟩ : BufTy).Contents (Elt Ideal))
    (x2 : (⟨Cert.ReferenceIdeal.S3200000, .f32⟩ : BufTy).Contents (Elt Ideal)) (x3 : (⟨Cert.ReferenceIdeal.S512x16, .f32⟩ : BufTy).Contents (Elt Ideal))
    (x4 : (⟨Cert.ReferenceIdeal.S16, .f32⟩ : BufTy).Contents (Elt Ideal)) (x5 : (⟨Cert.ReferenceIdeal.S16x7, .f32⟩ : BufTy).Contents (Elt Ideal))
    (x6 : (⟨Cert.ReferenceIdeal.S7, .f32⟩ : BufTy).Contents (Elt Ideal)) :
    G2 (val_main_v95 (F := Ideal) x0 x1 x2 x3 x4 x5)
        (shapeCast Cert.KernelIdeal.S1x7 x6 Cert.KernelIdeal.Facts₀.shapeCasts_S7_S1x7)
      = val_main_v99 (F := Ideal) x0 x1 x2 x3 x4 x5 x6 := by
  funext i
  obtain ⟨p, q, rfl⟩ : ∃ (p : Fin 100000) (q : Fin 7), i = ix2 p q := ⟨i 0, i 1, eq_ix2 i⟩
  rw [ref_lsm_apply]
  simp only [ref_bias2_apply]
  generalize val_main_v95 (F := Ideal) x0 x1 x2 x3 x4 x5 = A
  unfold G2
  simp only [shapeCast_a_1a_apply]

/-- THE VALUE EQUATION: the three launches, with the aggregation between them, compute the reference's result. -/
theorem value_eq (x0 : (⟨Cert.ReferenceIdeal.S100000x512, .f32⟩ : BufTy).Contents (Elt Ideal)) (x1 : (⟨Cert.ReferenceIdeal.S2x3200000, .i32⟩ : BufTy).Contents (Elt Ideal))
    (x2 : (⟨Cert.ReferenceIdeal.S3200000, .f32⟩ : BufTy).Contents (Elt Ideal)) (x3 : (⟨Cert.ReferenceIdeal.S512x16, .f32⟩ : BufTy).Contents (Elt Ideal))
    (x4 : (⟨Cert.ReferenceIdeal.S16, .f32⟩ : BufTy).Contents (Elt Ideal)) (x5 : (⟨Cert.ReferenceIdeal.S16x7, .f32⟩ : BufTy).Contents (Elt Ideal))
    (x6 : (⟨Cert.ReferenceIdeal.S7, .f32⟩ : BufTy).Contents (Elt Ideal)) :
    G2 (agg7 (F := Ideal) (srcK x1) (dstK x1) (normK x1 x2)
          (G1 (agg16 (F := Ideal) (srcK x1) (dstK x1) (normK x1 x2) (G0 x0 x3))
              (shapeCast Cert.KernelIdeal.S1x16 x4 Cert.KernelIdeal.Facts₀.shapeCasts_S16_S1x16) x5))
       (shapeCast Cert.KernelIdeal.S1x7 x6 Cert.KernelIdeal.Facts₀.shapeCasts_S7_S1x7)
      = val_main_v99 (F := Ideal) x0 x1 x2 x3 x4 x5 x6 := by
  rw [agg7_eq, g2_eq]

end Cert.Gcn

end
-- ==== Proof.RefMid.lean ====
/-
  The middle of the reference program, read over ANY buffer contents V it is entered with. Its operations between the
  first product and the final log-softmax fall into four stretches: the edge structure (sources, destinations and
  coefficients of the edges with the self-loops appended); the first aggregation, the bias, the maximum with zero and the
  second product; the edge structure built a second time; the second aggregation and the second bias. Each stretch
  writes, into the buffers the later ones read, the stage functions of what it finds, and leaves the other buffers as
  they were; chained, the four stretches write the stage function of the array the log-softmax is taken of.
-/
import proofs.«108973_j20822001451081_1_alg».proof.Proof.RefRead
import proofs.«108973_j20822001451081_1_alg».proof.Proof.LibStretch
import Idealize.ShloMosaic.Lib.StableHlo.Run

set_option maxRecDepth 16384

noncomputable section

namespace Cert.Gcn

open Cert.ReferenceIdeal Cert.ReferenceIdeal.Gen Cert.ReferenceIdeal.ReadP Idealize.ShloMosaic Idealize.ShloMosaic.TcCoe Idealize.SL.Sem Idealize.ShloMosaic.StableHlo Cert.Stretch

variable {F : FTy → Type} [FloatOps F]

/-! ## The four stretches -/

/-- The edge structure: the operations writing the buffers of values 1 … 32. -/
abbrev r2 : List (HloOp τ sig (Elt F)) :=
  [ unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    unary main_arg1 main_v3 ((extractStridedSlice S1x3200000 ![1, 0] · slices_S2x3200000_S1x3200000_1_0) : (⟨S2x3200000, .i32⟩ : BufTy).Contents (Elt F) → (⟨S1x3200000, .i32⟩ : BufTy).Contents (Elt F)),
    reshape main_v3 main_v4 rfl shapeCasts_S1x3200000_S3200000,
    nullary main_v5 (iotaInDim S100000 32 0),
    binary main_v2 main_v5 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_v4 main_v5 main_v7 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v8 (broadcastInDim S100000 ![] bcast_S_S100000 : (⟨S_, .f32⟩ : BufTy).Contents (Elt F) → (⟨S100000, .f32⟩ : BufTy).Contents (Elt F)),
    binary main_arg2 main_v8 main_v9 ((fun a b => concatenate S3300000 0 [⟨S3200000, a⟩, ⟨S100000, b⟩] concatenates_S3200000_S100000_S3300000_d0) : (⟨S3200000, .f32⟩ : BufTy).Contents (Elt F) → (⟨S100000, .f32⟩ : BufTy).Contents (Elt F) → (⟨S3300000, .f32⟩ : BufTy).Contents (Elt F)),
    nullary main_cst_0 (constant S_ .f32 0x00000000#32),
    unary main_cst_0 main_v10 (broadcastInDim S100000 ![] bcast_S_S100000 : (⟨S_, .f32⟩ : BufTy).Contents (Elt F) → (⟨S100000, .f32⟩ : BufTy).Contents (Elt F)),
    unary main_v7 main_v11 (broadcastInDim S3300000x1 ![0] bcast_S3300000_S3300000x1_0 : (⟨S3300000, .i32⟩ : BufTy).Contents (Elt F) → (⟨S3300000x1, .i32⟩ : BufTy).Contents (Elt F)),
    ternary main_v10 main_v11 main_v9 main_v12 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v13 (broadcastInDim S100000 ![] bcast_S_S100000 : (⟨S_, .f32⟩ : BufTy).Contents (Elt F) → (⟨S100000, .f32⟩ : BufTy).Contents (Elt F)),
    binary main_v12 main_v13 main_v14 (cmpf .ogt : (⟨S100000, .f32⟩ : BufTy).Contents (Elt F) → (⟨S100000, .f32⟩ : BufTy).Contents (Elt F) → (⟨S100000, .i1⟩ : BufTy).Contents (Elt F)),
    unary main_v12 main_v15 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v14) (TRef.of (T := ⟨S100000, .f32⟩) main_v15) (TRef.of (T := ⟨S100000, .f32⟩) main_call0_v1) (TRef.of (T := ⟨S100000, .f32⟩) main_v16) select,
    nullary main_c (constantI S_ 32 0#32),
    unary main_c main_v17 (broadcastInDim S3300000 ![] bcast_S_S3300000 : (⟨S_, .i32⟩ : BufTy).Contents (Elt F) → (⟨S3300000, .i32⟩ : BufTy).Contents (Elt F)),
    binary main_v6 main_v17 main_v18 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v19 (broadcastInDim S3300000 ![] bcast_S_S3300000 : (⟨S_, .i32⟩ : BufTy).Contents (Elt F) → (⟨S3300000, .i32⟩ : BufTy).Contents (Elt F)),
    binary main_v6 main_v19 main_v20 (addi : (⟨S3300000, .i32⟩ : BufTy).Contents (Elt F) → (⟨S3300000, .i32⟩ : BufTy).Contents (Elt F) → (⟨S3300000, .i32⟩ : BufTy).Contents (Elt F)),
    ternary main_v18 main_v20 main_v6 main_v21 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v21 main_v22 (broadcastInDim S3300000x1 ![0] bcast_S3300000_S3300000x1_0 : (⟨S3300000, .i32⟩ : BufTy).Contents (Elt F) → (⟨S3300000x1, .i32⟩ : BufTy).Contents (Elt F)),
    binary main_v16 main_v22 main_v23 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v23 main_v9 main_v24 (mulf : (⟨S3300000, .f32⟩ : BufTy).Contents (Elt F) → (⟨S3300000, .f32⟩ : BufTy).Contents (Elt F) → (⟨S3300000, .f32⟩ : BufTy).Contents (Elt F)),
    nullary main_c_4 (constantI S_ 32 0#32),
    unary main_c_4 main_v25 (broadcastInDim S3300000 ![] bcast_S_S3300000 : (⟨S_, .i32⟩ : BufTy).Contents (Elt F) → (⟨S3300000, .i32⟩ : BufTy).Contents (Elt F)),
    binary main_v7 main_v25 main_v26 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v27 (broadcastInDim S3300000 ![] bcast_S_S3300000 : (⟨S_, .i32⟩ : BufTy).Contents (Elt F) → (⟨S3300000, .i32⟩ : BufTy).Contents (Elt F)),
    binary main_v7 main_v27 main_v28 (addi : (⟨S3300000, .i32⟩ : BufTy).Contents (Elt F) → (⟨S3300000, .i32⟩ : BufTy).Contents (Elt F) → (⟨S3300000, .i32⟩ : BufTy).Contents (Elt F)),
    ternary main_v26 main_v28 main_v7 main_v29 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v29 main_v30 (broadcastInDim S3300000x1 ![0] bcast_S3300000_S3300000x1_0 : (⟨S3300000, .i32⟩ : BufTy).Contents (Elt F) → (⟨S3300000x1, .i32⟩ : BufTy).Contents (Elt F)),
    binary main_v16 main_v30 main_v31 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v24 main_v31 main_v32 (mulf : (⟨S3300000, .f32⟩ : BufTy).Contents (Elt F) → (⟨S3300000, .f32⟩ : BufTy).Contents (Elt F) → (⟨S3300000, .f32⟩ : BufTy).Contents (Elt F)) ]

/-- The first aggregation through the second product: the operations writing the buffers of values 33 … 50. -/
abbrev r3 : List (HloOp τ sig (Elt F)) :=
  [ unary main_v32 main_v33 (broadcastInDim S3300000x1 ![0] bcast_S3300000_S3300000x1_0 : (⟨S3300000, .f32⟩ : BufTy).Contents (Elt F) → (⟨S3300000x1, .f32⟩ : BufTy).Contents (Elt F)),
    nullary main_c_6 (constantI S_ 32 0#32),
    unary main_c_6 main_v34 (broadcastInDim S3300000 ![] bcast_S_S3300000 : (⟨S_, .i32⟩ : BufTy).Contents (Elt F) → (⟨S3300000, .i32⟩ : BufTy).Contents (Elt F)),
    binary main_v6 main_v34 main_v35 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v36 (broadcastInDim S3300000 ![] bcast_S_S3300000 : (⟨S_, .i32⟩ : BufTy).Contents (Elt F) → (⟨S3300000, .i32⟩ : BufTy).Contents (Elt F)),
    binary main_v6 main_v36 main_v37 (addi : (⟨S3300000, .i32⟩ : BufTy).Contents (Elt F) → (⟨S3300000, .i32⟩ : BufTy).Contents (Elt F) → (⟨S3300000, .i32⟩ : BufTy).Contents (Elt F)),
    ternary main_v35 main_v37 main_v6 main_v38 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v38 main_v39 (broadcastInDim S3300000x1 ![0] bcast_S3300000_S3300000x1_0 : (⟨S3300000, .i32⟩ : BufTy).Contents (Elt F) → (⟨S3300000x1, .i32⟩ : BufTy).Contents (Elt F)),
    binary main_v0 main_v39 main_v40 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v33 main_v41 (broadcastInDim S3300000x16 ![0, 1] bcast_S3300000x1_S3300000x16_0_1 : (⟨S3300000x1, .f32⟩ : BufTy).Contents (Elt F) → (⟨S3300000x16, .f32⟩ : BufTy).Contents (Elt F)),
    binary main_v41 main_v40 main_v42 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v43 (broadcastInDim S100000x16 ![] bcast_S_S100000x16 : (⟨S_, .f32⟩ : BufTy).Contents (Elt F) → (⟨S100000x16, .f32⟩ : BufTy).Contents (Elt F)),
    unary main_v7 main_v44 (broadcastInDim S3300000x1 ![0] bcast_S3300000_S3300000x1_0 : (⟨S3300000, .i32⟩ : BufTy).Contents (Elt F) → (⟨S3300000x1, .i32⟩ : BufTy).Contents (Elt F)),
    ternary main_v43 main_v44 main_v42 main_v45 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg4 main_v46 (broadcastInDim S1x16 ![1] bcast_S16_S1x16_1 : (⟨S16, .f32⟩ : BufTy).Contents (Elt F) → (⟨S1x16, .f32⟩ : BufTy).Contents (Elt F)),
    unary main_v46 main_v47 (broadcastInDim S100000x16 ![0, 1] bcast_S1x16_S100000x16_0_1 : (⟨S1x16, .f32⟩ : BufTy).Contents (Elt F) → (⟨S100000x16, .f32⟩ : BufTy).Contents (Elt F)),
    binary main_v45 main_v47 main_v48 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v48) (TRef.of (T := ⟨S100000x16, .f32⟩) main_call1_v0) (TRef.of (T := ⟨S100000x16, .f32⟩) main_v49) maximumf,
    binary main_v49 main_arg5 main_v50 ((fun l r => Host.dotGeneral dot_S100000x16_S16x7_S100000x7_1_0_0_1_n_n none l r) : (⟨S100000x16, .f32⟩ : BufTy).Contents (Elt F) → (⟨S16x7, .f32⟩ : BufTy).Contents (Elt F) → (⟨S100000x7, .f32⟩ : BufTy).Contents (Elt F)) ]

/-- The edge structure again: the operations writing the buffers of values 51 … 82. -/
abbrev r4 : List (HloOp τ sig (Elt F)) :=
  [ unary main_arg1 main_v51 ((extractStridedSlice S1x3200000 ![0, 0] · slices_S2x3200000_S1x3200000_0_0) : (⟨S2x3200000, .i32⟩ : BufTy).Contents (Elt F) → (⟨S1x3200000, .i32⟩ : BufTy).Contents (Elt F)),
    reshape main_v51 main_v52 rfl shapeCasts_S1x3200000_S3200000,
    unary main_arg1 main_v53 ((extractStridedSlice S1x3200000 ![1, 0] · slices_S2x3200000_S1x3200000_1_0) : (⟨S2x3200000, .i32⟩ : BufTy).Contents (Elt F) → (⟨S1x3200000, .i32⟩ : BufTy).Contents (Elt F)),
    reshape main_v53 main_v54 rfl shapeCasts_S1x3200000_S3200000,
    nullary main_v55 (iotaInDim S100000 32 0),
    binary main_v52 main_v55 main_v56 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_v54 main_v55 main_v57 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst_9 (constant S_ .f32 0x3F800000#32),
    unary main_cst_9 main_v58 (broadcastInDim S100000 ![] bcast_S_S100000 : (⟨S_, .f32⟩ : BufTy).Contents (Elt F) → (⟨S100000, .f32⟩ : BufTy).Contents (Elt F)),
    binary main_arg2 main_v58 main_v59 ((fun a b => concatenate S3300000 0 [⟨S3200000, a⟩, ⟨S100000, b⟩] concatenates_S3200000_S100000_S3300000_d0) : (⟨S3200000, .f32⟩ : BufTy).Contents (Elt F) → (⟨S100000, .f32⟩ : BufTy).Contents (Elt F) → (⟨S3300000, .f32⟩ : BufTy).Contents (Elt F)),
    nullary main_cst_10 (constant S_ .f32 0x00000000#32),
    unary main_cst_10 main_v60 (broadcastInDim S100000 ![] bcast_S_S100000 : (⟨S_, .f32⟩ : BufTy).Contents (Elt F) → (⟨S100000, .f32⟩ : BufTy).Contents (Elt F)),
    unary main_v57 main_v61 (broadcastInDim S3300000x1 ![0] bcast_S3300000_S3300000x1_0 : (⟨S3300000, .i32⟩ : BufTy).Contents (Elt F) → (⟨S3300000x1, .i32⟩ : BufTy).Contents (Elt F)),
    ternary main_v60 main_v61 main_v59 main_v62 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_11 (constant S_ .f32 0x00000000#32),
    unary main_cst_11 main_v63 (broadcastInDim S100000 ![] bcast_S_S100000 : (⟨S_, .f32⟩ : BufTy).Contents (Elt F) → (⟨S100000, .f32⟩ : BufTy).Contents (Elt F)),
    binary main_v62 main_v63 main_v64 (cmpf .ogt : (⟨S100000, .f32⟩ : BufTy).Contents (Elt F) → (⟨S100000, .f32⟩ : BufTy).Contents (Elt F) → (⟨S100000, .i1⟩ : BufTy).Contents (Elt F)),
    unary main_v62 main_v65 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v64) (TRef.of (T := ⟨S100000, .f32⟩) main_v65) (TRef.of (T := ⟨S100000, .f32⟩) main_call2_v1) (TRef.of (T := ⟨S100000, .f32⟩) main_v66) select,
    nullary main_c_13 (constantI S_ 32 0#32),
    unary main_c_13 main_v67 (broadcastInDim S3300000 ![] bcast_S_S3300000 : (⟨S_, .i32⟩ : BufTy).Contents (Elt F) → (⟨S3300000, .i32⟩ : BufTy).Contents (Elt F)),
    binary main_v56 main_v67 main_v68 (cmpi .slt : (⟨S3300000, .i32⟩ : BufTy).Contents (Elt F) → (⟨S3300000, .i32⟩ : BufTy).Contents (Elt F) → (⟨S3300000, .i1⟩ : BufTy).Contents (Elt F)),
    nullary main_c_14 (constantI S_ 32 100000#32),
    unary main_c_14 main_v69 (broadcastInDim S3300000 ![] bcast_S_S3300000 : (⟨S_, .i32⟩ : BufTy).Contents (Elt F) → (⟨S3300000, .i32⟩ : BufTy).Contents (Elt F)),
    binary main_v56 main_v69 main_v70 (addi : (⟨S3300000, .i32⟩ : BufTy).Contents (Elt F) → (⟨S3300000, .i32⟩ : BufTy).Contents (Elt F) → (⟨S3300000, .i32⟩ : BufTy).Contents (Elt F)),
    ternary main_v68 main_v70 main_v56 main_v71 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v71 main_v72 (broadcastInDim S3300000x1 ![0] bcast_S3300000_S3300000x1_0 : (⟨S3300000, .i32⟩ : BufTy).Contents (Elt F) → (⟨S3300000x1, .i32⟩ : BufTy).Contents (Elt F)),
    binary main_v66 main_v72 main_v73 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v73 main_v59 main_v74 (mulf : (⟨S3300000, .f32⟩ : BufTy).Contents (Elt F) → (⟨S3300000, .f32⟩ : BufTy).Contents (Elt F) → (⟨S3300000, .f32⟩ : BufTy).Contents (Elt F)),
    nullary main_c_15 (constantI S_ 32 0#32),
    unary main_c_15 main_v75 (broadcastInDim S3300000 ![] bcast_S_S3300000 : (⟨S_, .i32⟩ : BufTy).Contents (Elt F) → (⟨S3300000, .i32⟩ : BufTy).Contents (Elt F)),
    binary main_v57 main_v75 main_v76 (cmpi .slt : (⟨S3300000, .i32⟩ : BufTy).Contents (Elt F) → (⟨S3300000, .i32⟩ : BufTy).Contents (Elt F) → (⟨S3300000, .i1⟩ : BufTy).Contents (Elt F)),
    nullary main_c_16 (constantI S_ 32 100000#32),
    unary main_c_16 main_v77 (broadcastInDim S3300000 ![] bcast_S_S3300000 : (⟨S_, .i32⟩ : BufTy).Contents (Elt F) → (⟨S3300000, .i32⟩ : BufTy).Contents (Elt F)),
    binary main_v57 main_v77 main_v78 (addi : (⟨S3300000, .i32⟩ : BufTy).Contents (Elt F) → (⟨S3300000, .i32⟩ : BufTy).Contents (Elt F) → (⟨S3300000, .i32⟩ : BufTy).Contents (Elt F)),
    ternary main_v76 main_v78 main_v57 main_v79 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v79 main_v80 (broadcastInDim S3300000x1 ![0] bcast_S3300000_S3300000x1_0 : (⟨S3300000, .i32⟩ : BufTy).Contents (Elt F) → (⟨S3300000x1, .i32⟩ : BufTy).Contents (Elt F)),
    binary main_v66 main_v80 main_v81 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v74 main_v81 main_v82 (mulf : (⟨S3300000, .f32⟩ : BufTy).Contents (Elt F) → (⟨S3300000, .f32⟩ : BufTy).Contents (Elt F) → (⟨S3300000, .f32⟩ : BufTy).Contents (Elt F)) ]

/-- The second aggregation and the second bias: the operations writing the buffers of values 83 … 98. -/
abbrev r5 : List (HloOp τ sig (Elt F)) :=
  [ unary main_v82 main_v83 (broadcastInDim S3300000x1 ![0] bcast_S3300000_S3300000x1_0 : (⟨S3300000, .f32⟩ : BufTy).Contents (Elt F) → (⟨S3300000x1, .f32⟩ : BufTy).Contents (Elt F)),
    nullary main_c_17 (constantI S_ 32 0#32),
    unary main_c_17 main_v84 (broadcastInDim S3300000 ![] bcast_S_S3300000 : (⟨S_, .i32⟩ : BufTy).Contents (Elt F) → (⟨S3300000, .i32⟩ : BufTy).Contents (Elt F)),
    binary main_v56 main_v84 main_v85 (cmpi .slt : (⟨S3300000, .i32⟩ : BufTy).Contents (Elt F) → (⟨S3300000, .i32⟩ : BufTy).Contents (Elt F) → (⟨S3300000, .i1⟩ : BufTy).Contents (Elt F)),
    nullary main_c_18 (constantI S_ 32 100000#32),
    unary main_c_18 main_v86 (broadcastInDim S3300000 ![] bcast_S_S3300000 : (⟨S_, .i32⟩ : BufTy).Contents (Elt F) → (⟨S3300000, .i32⟩ : BufTy).Contents (Elt F)),
    binary main_v56 main_v86 main_v87 (addi : (⟨S3300000, .i32⟩ : BufTy).Contents (Elt F) → (⟨S3300000, .i32⟩ : BufTy).Contents (Elt F) → (⟨S3300000, .i32⟩ : BufTy).Contents (Elt F)),
    ternary main_v85 main_v87 main_v56 main_v88 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v88 main_v89 (broadcastInDim S3300000x1 ![0] bcast_S3300000_S3300000x1_0 : (⟨S3300000, .i32⟩ : BufTy).Contents (Elt F) → (⟨S3300000x1, .i32⟩ : BufTy).Contents (Elt F)),
    binary main_v50 main_v89 main_v90 ((fun x i => Host.gather gather_S100000x7_S3300000x1_S3300000x7_1_0_n_n_0_1_17 x i) : (⟨S100000x7, .f32⟩ : BufTy).Contents (Elt F) → (⟨S3300000x1, .i32⟩ : BufTy).Contents (Elt F) → (⟨S3300000x7, .f32⟩ : BufTy).Contents (Elt F)),
    unary main_v83 main_v91 (broadcastInDim S3300000x7 ![0, 1] bcast_S3300000x1_S3300000x7_0_1 : (⟨S3300000x1, .f32⟩ : BufTy).Contents (Elt F) → (⟨S3300000x7, .f32⟩ : BufTy).Contents (Elt F)),
    binary main_v91 main_v90 main_v92 (mulf : (⟨S3300000x7, .f32⟩ : BufTy).Contents (Elt F) → (⟨S3300000x7, .f32⟩ : BufTy).Contents (Elt F) → (⟨S3300000x7, .f32⟩ : BufTy).Contents (Elt F)),
    nullary main_cst_19 (constant S_ .f32 0x00000000#32),
    unary main_cst_19 main_v93 (broadcastInDim S100000x7 ![] bcast_S_S100000x7 : (⟨S_, .f32⟩ : BufTy).Contents (Elt F) → (⟨S100000x7, .f32⟩ : BufTy).Contents (Elt F)),
    unary main_v57 main_v94 (broadcastInDim S3300000x1 ![0] bcast_S3300000_S3300000x1_0 : (⟨S3300000, .i32⟩ : BufTy).Contents (Elt F) → (⟨S3300000x1, .i32⟩ : BufTy).Contents (Elt F)),
    ternary main_v93 main_v94 main_v92 main_v95 ((fun x i u => Host.scatterAdd scatter_S100000x7_S3300000x1_S3300000x7_1_0_0_1 x i u) : (⟨S100000x7, .f32⟩ : BufTy).Contents (Elt F) → (⟨S3300000x1, .i32⟩ : BufTy).Contents (Elt F) → (⟨S3300000x7, .f32⟩ : BufTy).Contents (Elt F) → (⟨S100000x7, .f32⟩ : BufTy).Contents (Elt F)),
    unary main_arg6 main_v96 (broadcastInDim S1x7 ![1] bcast_S7_S1x7_1 : (⟨S7, .f32⟩ : BufTy).Contents (Elt F) → (⟨S1x7, .f32⟩ : BufTy).Contents (Elt F)),
    unary main_v96 main_v97 (broadcastInDim S100000x7 ![0, 1] bcast_S1x7_S100000x7_0_1 : (⟨S1x7, .f32⟩ : BufTy).Contents (Elt F) → (⟨S100000x7, .f32⟩ : BufTy).Contents (Elt F)),
    binary main_v95 main_v97 main_v98 (addf : (⟨S100000x7, .f32⟩ : BufTy).Contents (Elt F) → (⟨S100000x7, .f32⟩ : BufTy).Contents (Elt F) → (⟨S100000x7, .f32⟩ : BufTy).Contents (Elt F)) ]

/-! ## The first stretch -/

set_option maxHeartbeats 1000000 in
theorem r2_v6 (V : Valuation τ sig (Elt F)) :
    after (r2 (F := F)) V (Proc.devRef .tc main_v6) = val_main_v6 (F := F) (V (Proc.devRef .tc main_arg1)) := by
  after_results_simp
  rfl
set_option maxHeartbeats 1000000 in
theorem r2_v7 (V : Valuation τ sig (Elt F)) :
    after (r2 (F := F)) V (Proc.devRef .tc main_v7) = val_main_v7 (F := F) (V (Proc.devRef .tc main_arg1)) := by
  after_results_simp
  rfl
set_option maxHeartbeats 1000000 in
theorem r2_v32 (V : Valuation τ sig (Elt F)) :
    after (r2 (F := F)) V (Proc.devRef .tc main_v32) = val_main_v32 (F := F) (V (Proc.devRef .tc main_arg1)) (V (Proc.devRef .tc main_arg2)) := by
  after_results_simp
  simp only [cast_cast, cast_eq]
  rfl
theorem k2_v0 (V : Valuation τ sig (Elt F)) : after (r2 (F := F)) V (Proc.devRef .tc main_v0) = V (Proc.devRef .tc main_v0) := by unwritten r2
theorem k2_arg1 (V : Valuation τ sig (Elt F)) : after (r2 (F := F)) V (Proc.devRef .tc main_arg1) = V (Proc.devRef .tc main_arg1) := by unwritten r2
theorem k2_arg2 (V : Valuation τ sig (Elt F)) : after (r2 (F := F)) V (Proc.devRef .tc main_arg2) = V (Proc.devRef .tc main_arg2) := by unwritten r2
theorem k2_arg4 (V : Valuation τ sig (Elt F)) : after (r2 (F := F)) V (Proc.devRef .tc main_arg4) = V (Proc.devRef .tc main_arg4) := by unwritten r2
theorem k2_arg5 (V : Valuation τ sig (Elt F)) : after (r2 (F := F)) V (Proc.devRef .tc main_arg5) = V (Proc.devRef .tc main_arg5) := by unwritten r2
theorem k2_arg6 (V : Valuation τ sig (Elt F)) : after (r2 (F := F)) V (Proc.devRef .tc main_arg6) = V (Proc.devRef .tc main_arg6) := by unwritten r2

/-! ## The second stretch -/

set_option maxHeartbeats 1000000 in
theorem r3_v50 (V : Valuation τ sig (Elt F)) (x0 : (⟨S100000x512, .f32⟩ : BufTy).Contents (Elt F)) (x1 : (⟨S2x3200000, .i32⟩ : BufTy).Contents (Elt F)) (x2 : (⟨S3200000, .f32⟩ : BufTy).Contents (Elt F)) (x3 : (⟨S512x16, .f32⟩ : BufTy).Contents (Elt F)) (x4 : (⟨S16, .f32⟩ : BufTy).Contents (Elt F)) (x5 : (⟨S16x7, .f32⟩ : BufTy).Contents (Elt F))
    (hv0 : V (Proc.devRef .tc main_v0) = val_main_v0 (F := F) x0 x3) (hv6 : V (Proc.devRef .tc main_v6) = val_main_v6 (F := F) x1)
    (hv7 : V (Proc.devRef .tc main_v7) = val_main_v7 (F := F) x1) (hv32 : V (Proc.devRef .tc main_v32) = val_main_v32 (F := F) x1 x2)
    (h4 : V (Proc.devRef .tc main_arg4) = x4) (h5 : V (Proc.devRef .tc main_arg5) = x5) :
    after (r3 (F := F)) V (Proc.devRef .tc main_v50) = val_main_v50 (F := F) x0 x1 x2 x3 x4 x5 := by
  after_results_simp
  rw [hv0, hv6, hv7, hv32, h4, h5]
  simp only [cast_cast, cast_eq]
  rfl
theorem k3_arg1 (V : Valuation τ sig (Elt F)) : after (r3 (F := F)) V (Proc.devRef .tc main_arg1) = V (Proc.devRef .tc main_arg1) := by unwritten r3
theorem k3_arg2 (V : Valuation τ sig (Elt F)) : after (r3 (F := F)) V (Proc.devRef .tc main_arg2) = V (Proc.devRef .tc main_arg2) := by unwritten r3
theorem k3_arg6 (V : Valuation τ sig (Elt F)) : after (r3 (F := F)) V (Proc.devRef .tc main_arg6) = V (Proc.devRef .tc main_arg6) := by unwritten r3

/-! ## The third stretch -/

set_option maxHeartbeats 1000000 in
theorem r4_v56 (V : Valuation τ sig (Elt F)) :
    after (r4 (F := F)) V (Proc.devRef .tc main_v56) = val_main_v56 (F := F) (V (Proc.devRef .tc main_arg1)) := by
  after_results_simp
  rfl
set_option maxHeartbeats 1000000 in
theorem r4_v57 (V : Valuation τ sig (Elt F)) :
    after (r4 (F := F)) V (Proc.devRef .tc main_v57) = val_main_v57 (F := F) (V (Proc.devRef .tc main_arg1)) := by
  after_results_simp
  rfl
set_option maxHeartbeats 1000000 in
theorem r4_v82 (V : Valuation τ sig (Elt F)) :
    after (r4 (F := F)) V (Proc.devRef .tc main_v82) = val_main_v82 (F := F) (V (Proc.devRef .tc main_arg1)) (V (Proc.devRef .tc main_arg2)) := by
  after_results_simp
  simp only [cast_cast, cast_eq]
  rfl
theorem k4_v50 (V : Valuation τ sig (Elt F)) : after (r4 (F := F)) V (Proc.devRef .tc main_v50) = V (Proc.devRef .tc main_v50) := by unwritten r4
theorem k4_arg6 (V : Valuation τ sig (Elt F)) : after (r4 (F := F)) V (Proc.devRef .tc main_arg6) = V (Proc.devRef .tc main_arg6) := by unwritten r4

/-! ## The fourth stretch -/

set_option maxHeartbeats 1000000 in
theorem r5_v98 (V : Valuation τ sig (Elt F)) (x0 : (⟨S100000x512, .f32⟩ : BufTy).Contents (Elt F)) (x1 : (⟨S2x3200000, .i32⟩ : BufTy).Contents (Elt F)) (x2 : (⟨S3200000, .f32⟩ : BufTy).Contents (Elt F)) (x3 : (⟨S512x16, .f32⟩ : BufTy).Contents (Elt F)) (x4 : (⟨S16, .f32⟩ : BufTy).Contents (Elt F)) (x5 : (⟨S16x7, .f32⟩ : BufTy).Contents (Elt F)) (x6 : (⟨S7, .f32⟩ : BufTy).Contents (Elt F))
    (hv50 : V (Proc.devRef .tc main_v50) = val_main_v50 (F := F) x0 x1 x2 x3 x4 x5) (hv56 : V (Proc.devRef .tc main_v56) = val_main_v56 (F := F) x1)
    (hv57 : V (Proc.devRef .tc main_v57) = val_main_v57 (F := F) x1) (hv82 : V (Proc.devRef .tc main_v82) = val_main_v82 (F := F) x1 x2)
    (h6 : V (Proc.devRef .tc main_arg6) = x6) :
    after (r5 (F := F)) V (Proc.devRef .tc main_v98) = val_main_v98 (F := F) x0 x1 x2 x3 x4 x5 x6 := by
  after_results_simp
  rw [hv50, hv56, hv57, hv82, h6]
  rfl

/-! ## The four stretches chained -/

/-- From contents holding the first product and the arguments, the four stretches leave, in the buffer the
    log-softmax reads, the stage function of the arguments. -/
theorem mid_v98 (V : Valuation τ sig (Elt F)) (x0 : (⟨S100000x512, .f32⟩ : BufTy).Contents (Elt F)) (x1 : (⟨S2x3200000, .i32⟩ : BufTy).Contents (Elt F)) (x2 : (⟨S3200000, .f32⟩ : BufTy).Contents (Elt F)) (x3 : (⟨S512x16, .f32⟩ : BufTy).Contents (Elt F)) (x4 : (⟨S16, .f32⟩ : BufTy).Contents (Elt F)) (x5 : (⟨S16x7, .f32⟩ : BufTy).Contents (Elt F)) (x6 : (⟨S7, .f32⟩ : BufTy).Contents (Elt F))
    (h0 : V (Proc.devRef .tc main_v0) = val_main_v0 (F := F) x0 x3) (h1 : V (Proc.devRef .tc main_arg1) = x1) (h2 : V (Proc.devRef .tc main_arg2) = x2) (h4 : V (Proc.devRef .tc main_arg4) = x4) (h5 : V (Proc.devRef .tc main_arg5) = x5) (h6 : V (Proc.devRef .tc main_arg6) = x6) :
    after r5 (after r4 (after r3 (after r2 V))) (Proc.devRef .tc main_v98) = val_main_v98 (F := F) x0 x1 x2 x3 x4 x5 x6 := by
  have e50 : after r3 (after r2 V) (Proc.devRef .tc main_v50) = val_main_v50 (F := F) x0 x1 x2 x3 x4 x5 :=
    r3_v50 (after r2 V) x0 x1 x2 x3 x4 x5
      ((k2_v0 V).trans h0) ((r2_v6 V).trans (congrArg _ h1)) ((r2_v7 V).trans (congrArg _ h1))
      ((r2_v32 V).trans (by rw [h1, h2])) ((k2_arg4 V).trans h4) ((k2_arg5 V).trans h5)
  have e1 : after r3 (after r2 V) (Proc.devRef .tc main_arg1) = x1 := (k3_arg1 _).trans ((k2_arg1 V).trans h1)
  have e2 : after r3 (after r2 V) (Proc.devRef .tc main_arg2) = x2 := (k3_arg2 _).trans ((k2_arg2 V).trans h2)
  have e6 : after r3 (after r2 V) (Proc.devRef .tc main_arg6) = x6 := (k3_arg6 _).trans ((k2_arg6 V).trans h6)
  exact r5_v98 (after r4 (after r3 (after r2 V))) x0 x1 x2 x3 x4 x5 x6
    ((k4_v50 _).trans e50) ((r4_v56 _).trans (congrArg _ e1)) ((r4_v57 _).trans (congrArg _ e1))
    ((r4_v82 _).trans (by rw [e1, e2])) ((k4_arg6 _).trans e6)

end Cert.Gcn

end
-- ==== Proof.RefStretch.lean ====
/-
  The reference program's run read stretch by stretch. Its 142 host operations are one list; the list is cut into
  the first matrix product, the four middle stretches, and the closing log-softmax in six short pieces. After a
  concatenation the buffers are what the second list leaves from what the first left. Each piece, over any contents
  V, leaves in its result buffer the stage function of the reference program applied to the arguments, given that V
  holds the earlier stage functions in the buffers the piece reads, and leaves every buffer it does not write as it
  was. Chaining the pieces from the launch contents gives the last buffer as the last stage function of the launch
  arguments, and no operation writes an argument buffer.
-/
import proofs.«108973_j20822001451081_1_alg».proof.Proof.RefMid
import proofs.«108973_j20822001451081_1_alg».proof.Proof.RefRead
import Idealize.ShloMosaic.Lib.StableHlo.Run

set_option maxRecDepth 16384

noncomputable section

namespace Cert.Gcn

open Cert.ReferenceIdeal Cert.ReferenceIdeal.Gen Cert.ReferenceIdeal.ReadP Idealize.ShloMosaic Idealize.ShloMosaic.TcCoe Idealize.SL.Sem Idealize.ShloMosaic.StableHlo Cert.Stretch

variable {F : FTy → Type} [FloatOps F]

/-! ## The first stretch: the first matrix product -/

abbrev s1 : List (HloOp τ sig (Elt F)) :=
  [
    binary main_arg0 main_arg3 main_v0 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)) ]

/-- The first stretch leaves the first product of the two argument arrays it reads. -/
theorem s1_v0 (V : Valuation τ sig (Elt F)) :
    after (s1 (F := F)) V (Proc.devRef .tc main_v0) = val_main_v0 (F := F) (V (Proc.devRef .tc main_arg0)) (V (Proc.devRef .tc main_arg3)) := by
  after_results_simp
  rfl

/-- It writes no argument buffer. -/
theorem k1_arg1 (V : Valuation τ sig (Elt F)) : after (s1 (F := F)) V (Proc.devRef .tc main_arg1) = V (Proc.devRef .tc main_arg1) := by unwritten s1
theorem k1_arg2 (V : Valuation τ sig (Elt F)) : after (s1 (F := F)) V (Proc.devRef .tc main_arg2) = V (Proc.devRef .tc main_arg2) := by unwritten s1
theorem k1_arg4 (V : Valuation τ sig (Elt F)) : after (s1 (F := F)) V (Proc.devRef .tc main_arg4) = V (Proc.devRef .tc main_arg4) := by unwritten s1
theorem k1_arg5 (V : Valuation τ sig (Elt F)) : after (s1 (F := F)) V (Proc.devRef .tc main_arg5) = V (Proc.devRef .tc main_arg5) := by unwritten s1
theorem k1_arg6 (V : Valuation τ sig (Elt F)) : after (s1 (F := F)) V (Proc.devRef .tc main_arg6) = V (Proc.devRef .tc main_arg6) := by unwritten s1

/-! ## The last stretch, the log-softmax, in six pieces

Each piece's result is a stage function of the arguments when the buffers it reads hold the earlier stage functions; a
value moved to a buffer's own type and back is the value. -/

abbrev s6a : List (HloOp τ sig (Elt F)) :=
  [
    TRef.nullary (TRef.of (T := ⟨S_, .f32⟩) main_call3_cst) (constant S_ .f32 0xFF800000#32),
    TRef.binary (TRef.of (T := ⟨S100000x7, .f32⟩) main_v98) (TRef.of (T := ⟨S_, .f32⟩) main_call3_cst) (TRef.of (T := ⟨S100000, .f32⟩) main_call3_v0) (fun x v => Host.reduce FloatOps.maximumf x v reducesTo_S100000x7_S100000_d1 h_S_) ]

abbrev s6b : List (HloOp τ sig (Elt F)) :=
  [
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf ]

abbrev s6c : List (HloOp τ sig (Elt F)) :=
  [
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x7, .f32⟩) main_call3_v4) (broadcastInDim S100000x7 ![0, 1] bcast_S100000x1_S100000x7_0_1),
    TRef.binary (TRef.of (T := ⟨S100000x7, .f32⟩) main_v98) (TRef.of (T := ⟨S100000x7, .f32⟩) main_call3_v4) (TRef.of (T := ⟨S100000x7, .f32⟩) main_call3_v5) subf ]

abbrev s6d : List (HloOp τ sig (Elt F)) :=
  [
    TRef.unary (TRef.of (T := ⟨S100000x7, .f32⟩) main_call3_v5) (TRef.of (T := ⟨S100000x7, .f32⟩) main_call3_v6) Host.exp,
    TRef.nullary (TRef.of (T := ⟨S_, .f32⟩) main_call3_cst_1) (constant S_ .f32 0x00000000#32),
    TRef.binary (TRef.of (T := ⟨S100000x7, .f32⟩) main_call3_v6) (TRef.of (T := ⟨S_, .f32⟩) main_call3_cst_1) (TRef.of (T := ⟨S100000, .f32⟩) main_call3_v7) (fun x v => Host.reduceAdd x v reducesTo_S100000x7_S100000_d1 h_S_) ]

abbrev s6e : List (HloOp τ sig (Elt F)) :=
  [
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log ]

abbrev s6f : List (HloOp τ sig (Elt F)) :=
  [
    TRef.unary (TRef.of (T := ⟨S100000x1, .f32⟩) main_call3_v9) (TRef.of (T := ⟨S100000x7, .f32⟩) main_call3_v10) (broadcastInDim S100000x7 ![0, 1] bcast_S100000x1_S100000x7_0_1),
    TRef.binary (TRef.of (T := ⟨S100000x7, .f32⟩) main_call3_v5) (TRef.of (T := ⟨S100000x7, .f32⟩) main_call3_v10) (TRef.of (T := ⟨S100000x7, .f32⟩) main_v99) subf ]

set_option maxHeartbeats 400000 in
theorem s6a_v0 (V : Valuation τ sig (Elt F)) (x0 : (⟨S100000x512, .f32⟩ : BufTy).Contents (Elt F)) (x1 : (⟨S2x3200000, .i32⟩ : BufTy).Contents (Elt F)) (x2 : (⟨S3200000, .f32⟩ : BufTy).Contents (Elt F)) (x3 : (⟨S512x16, .f32⟩ : BufTy).Contents (Elt F)) (x4 : (⟨S16, .f32⟩ : BufTy).Contents (Elt F)) (x5 : (⟨S16x7, .f32⟩ : BufTy).Contents (Elt F)) (x6 : (⟨S7, .f32⟩ : BufTy).Contents (Elt F))
    (h98 : V (Proc.devRef .tc main_v98) = val_main_v98 (F := F) x0 x1 x2 x3 x4 x5 x6) :
    after (s6a (F := F)) V (Proc.devRef .tc main_call3_v0) = val_main_call3_v0 (F := F) x0 x1 x2 x3 x4 x5 x6 := by
  after_results_simp
  simp only [cast_cast, cast_eq]
  rw [h98]
  rfl

theorem k6a_v98 (V : Valuation τ sig (Elt F)) : after (s6a (F := F)) V (Proc.devRef .tc main_v98) = V (Proc.devRef .tc main_v98) := by unwritten s6a

set_option maxHeartbeats 400000 in
theorem s6b_v2 (V : Valuation τ sig (Elt F)) (x0 : (⟨S100000x512, .f32⟩ : BufTy).Contents (Elt F)) (x1 : (⟨S2x3200000, .i32⟩ : BufTy).Contents (Elt F)) (x2 : (⟨S3200000, .f32⟩ : BufTy).Contents (Elt F)) (x3 : (⟨S512x16, .f32⟩ : BufTy).Contents (Elt F)) (x4 : (⟨S16, .f32⟩ : BufTy).Contents (Elt F)) (x5 : (⟨S16x7, .f32⟩ : BufTy).Contents (Elt F)) (x6 : (⟨S7, .f32⟩ : BufTy).Contents (Elt F))
    (h0 : V (Proc.devRef .tc main_call3_v0) = val_main_call3_v0 (F := F) x0 x1 x2 x3 x4 x5 x6) :
    after (s6b (F := F)) V (Proc.devRef .tc main_call3_v2) = val_main_call3_v2 (F := F) x0 x1 x2 x3 x4 x5 x6 := by
  after_results_simp
  simp only [cast_cast, cast_eq]
  rw [h0]
  rfl

theorem k6b_v98 (V : Valuation τ sig (Elt F)) : after (s6b (F := F)) V (Proc.devRef .tc main_v98) = V (Proc.devRef .tc main_v98) := by unwritten s6b

set_option maxHeartbeats 400000 in
theorem s6c_v5 (V : Valuation τ sig (Elt F)) (x0 : (⟨S100000x512, .f32⟩ : BufTy).Contents (Elt F)) (x1 : (⟨S2x3200000, .i32⟩ : BufTy).Contents (Elt F)) (x2 : (⟨S3200000, .f32⟩ : BufTy).Contents (Elt F)) (x3 : (⟨S512x16, .f32⟩ : BufTy).Contents (Elt F)) (x4 : (⟨S16, .f32⟩ : BufTy).Contents (Elt F)) (x5 : (⟨S16x7, .f32⟩ : BufTy).Contents (Elt F)) (x6 : (⟨S7, .f32⟩ : BufTy).Contents (Elt F))
    (h98 : V (Proc.devRef .tc main_v98) = val_main_v98 (F := F) x0 x1 x2 x3 x4 x5 x6) (h2 : V (Proc.devRef .tc main_call3_v2) = val_main_call3_v2 (F := F) x0 x1 x2 x3 x4 x5 x6) :
    after (s6c (F := F)) V (Proc.devRef .tc main_call3_v5) = val_main_call3_v5 (F := F) x0 x1 x2 x3 x4 x5 x6 := by
  after_results_simp
  simp only [cast_cast, cast_eq]
  rw [h98, h2]
  rfl

set_option maxHeartbeats 400000 in
theorem s6d_v7 (V : Valuation τ sig (Elt F)) (x0 : (⟨S100000x512, .f32⟩ : BufTy).Contents (Elt F)) (x1 : (⟨S2x3200000, .i32⟩ : BufTy).Contents (Elt F)) (x2 : (⟨S3200000, .f32⟩ : BufTy).Contents (Elt F)) (x3 : (⟨S512x16, .f32⟩ : BufTy).Contents (Elt F)) (x4 : (⟨S16, .f32⟩ : BufTy).Contents (Elt F)) (x5 : (⟨S16x7, .f32⟩ : BufTy).Contents (Elt F)) (x6 : (⟨S7, .f32⟩ : BufTy).Contents (Elt F))
    (h5 : V (Proc.devRef .tc main_call3_v5) = val_main_call3_v5 (F := F) x0 x1 x2 x3 x4 x5 x6) :
    after (s6d (F := F)) V (Proc.devRef .tc main_call3_v7) = val_main_call3_v7 (F := F) x0 x1 x2 x3 x4 x5 x6 := by
  after_results_simp
  simp only [cast_cast, cast_eq]
  rw [h5]
  rfl

theorem k6d_v5 (V : Valuation τ sig (Elt F)) : after (s6d (F := F)) V (Proc.devRef .tc main_call3_v5) = V (Proc.devRef .tc main_call3_v5) := by unwritten s6d

set_option maxHeartbeats 400000 in
theorem s6e_v9 (V : Valuation τ sig (Elt F)) (x0 : (⟨S100000x512, .f32⟩ : BufTy).Contents (Elt F)) (x1 : (⟨S2x3200000, .i32⟩ : BufTy).Contents (Elt F)) (x2 : (⟨S3200000, .f32⟩ : BufTy).Contents (Elt F)) (x3 : (⟨S512x16, .f32⟩ : BufTy).Contents (Elt F)) (x4 : (⟨S16, .f32⟩ : BufTy).Contents (Elt F)) (x5 : (⟨S16x7, .f32⟩ : BufTy).Contents (Elt F)) (x6 : (⟨S7, .f32⟩ : BufTy).Contents (Elt F))
    (h7 : V (Proc.devRef .tc main_call3_v7) = val_main_call3_v7 (F := F) x0 x1 x2 x3 x4 x5 x6) :
    after (s6e (F := F)) V (Proc.devRef .tc main_call3_v9) = val_main_call3_v9 (F := F) x0 x1 x2 x3 x4 x5 x6 := by
  after_results_simp
  simp only [cast_cast, cast_eq]
  rw [h7]
  rfl

theorem k6e_v5 (V : Valuation τ sig (Elt F)) : after (s6e (F := F)) V (Proc.devRef .tc main_call3_v5) = V (Proc.devRef .tc main_call3_v5) := by unwritten s6e

set_option maxHeartbeats 400000 in
theorem s6f_v99 (V : Valuation τ sig (Elt F)) (x0 : (⟨S100000x512, .f32⟩ : BufTy).Contents (Elt F)) (x1 : (⟨S2x3200000, .i32⟩ : BufTy).Contents (Elt F)) (x2 : (⟨S3200000, .f32⟩ : BufTy).Contents (Elt F)) (x3 : (⟨S512x16, .f32⟩ : BufTy).Contents (Elt F)) (x4 : (⟨S16, .f32⟩ : BufTy).Contents (Elt F)) (x5 : (⟨S16x7, .f32⟩ : BufTy).Contents (Elt F)) (x6 : (⟨S7, .f32⟩ : BufTy).Contents (Elt F))
    (h5 : V (Proc.devRef .tc main_call3_v5) = val_main_call3_v5 (F := F) x0 x1 x2 x3 x4 x5 x6) (h9 : V (Proc.devRef .tc main_call3_v9) = val_main_call3_v9 (F := F) x0 x1 x2 x3 x4 x5 x6) :
    after (s6f (F := F)) V (Proc.devRef .tc main_v99) = val_main_v99 (F := F) x0 x1 x2 x3 x4 x5 x6 := by
  after_results_simp
  simp only [cast_cast, cast_eq]
  rw [h5, h9]
  rfl

/-! ## The whole list -/

set_option maxHeartbeats 4000000 in
/-- The program's operations are the stretches one after the other. -/
theorem ops_split : (ValueP.ops (F := F)) = s1 ++ (r2 ++ (r3 ++ (r4 ++ (r5 ++ (s6a ++ (s6b ++ (s6c ++ (s6d ++ (s6e ++ s6f))))))))) := rfl

set_option maxHeartbeats 1000000 in
/-- From any contents W the operations leave, in the last buffer, the last stage function of W's argument buffers. -/
theorem ops_v99 (W : Valuation τ sig (Elt F)) :
    after (ValueP.ops (F := F)) W (Proc.devRef .tc main_v99) = val_main_v99 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  rw [ops_split]
  simp only [Cert.Stretch.after_append]
  have h98 := mid_v98 (after s1 W) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6))
    (s1_v0 W) (k1_arg1 W) (k1_arg2 W) (k1_arg4 W) (k1_arg5 W) (k1_arg6 W)
  generalize after r5 (after r4 (after r3 (after r2 (after s1 W)))) = U at h98 ⊢
  have ha0 := s6a_v0 U _ _ _ _ _ _ _ h98
  have ha98 := (k6a_v98 U).trans h98
  generalize after s6a U = U1 at ha0 ha98 ⊢
  have hb2 := s6b_v2 U1 _ _ _ _ _ _ _ ha0
  have hb98 := (k6b_v98 U1).trans ha98
  generalize after s6b U1 = U2 at hb2 hb98 ⊢
  have hc5 := s6c_v5 U2 _ _ _ _ _ _ _ hb98 hb2
  generalize after s6c U2 = U3 at hc5 ⊢
  have hd7 := s6d_v7 U3 _ _ _ _ _ _ _ hc5
  have hd5 := (k6d_v5 U3).trans hc5
  generalize after s6d U3 = U4 at hd7 hd5 ⊢
  have he9 := s6e_v9 U4 _ _ _ _ _ _ _ hd7
  have he5 := (k6e_v5 U4).trans hd5
  generalize after s6e U4 = U5 at he9 he5 ⊢
  exact s6f_v99 U5 _ _ _ _ _ _ _ he5 he9

/-! ### No operation writes an argument buffer -/

set_option maxHeartbeats 4000000 in
theorem ops_arg0 (W : Valuation τ sig (Elt F)) : after (ValueP.ops (F := F)) W (Proc.devRef .tc main_arg0) = W (Proc.devRef .tc main_arg0) := by unwritten ValueP.ops
set_option maxHeartbeats 4000000 in
theorem ops_arg1 (W : Valuation τ sig (Elt F)) : after (ValueP.ops (F := F)) W (Proc.devRef .tc main_arg1) = W (Proc.devRef .tc main_arg1) := by unwritten ValueP.ops
set_option maxHeartbeats 4000000 in
theorem ops_arg2 (W : Valuation τ sig (Elt F)) : after (ValueP.ops (F := F)) W (Proc.devRef .tc main_arg2) = W (Proc.devRef .tc main_arg2) := by unwritten ValueP.ops
set_option maxHeartbeats 4000000 in
theorem ops_arg3 (W : Valuation τ sig (Elt F)) : after (ValueP.ops (F := F)) W (Proc.devRef .tc main_arg3) = W (Proc.devRef .tc main_arg3) := by unwritten ValueP.ops
set_option maxHeartbeats 4000000 in
theorem ops_arg4 (W : Valuation τ sig (Elt F)) : after (ValueP.ops (F := F)) W (Proc.devRef .tc main_arg4) = W (Proc.devRef .tc main_arg4) := by unwritten ValueP.ops
set_option maxHeartbeats 4000000 in
theorem ops_arg5 (W : Valuation τ sig (Elt F)) : after (ValueP.ops (F := F)) W (Proc.devRef .tc main_arg5) = W (Proc.devRef .tc main_arg5) := by unwritten ValueP.ops
set_option maxHeartbeats 4000000 in
theorem ops_arg6 (W : Valuation τ sig (Elt F)) : after (ValueP.ops (F := F)) W (Proc.devRef .tc main_arg6) = W (Proc.devRef .tc main_arg6) := by unwritten ValueP.ops

/-! ## The run -/

/-- On every device, from any memory with zero counters, every weakly fair execution of the reference program ends
    with the last buffer at the last stage function of the launch arguments, and the arguments as launched. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v99) = val_main_v99 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v99).trans (ops_v99 (launchContents m c)),
      (h c main_arg0).trans (ops_arg0 (launchContents m c)),
      (h c main_arg1).trans (ops_arg1 (launchContents m c)),
      (h c main_arg2).trans (ops_arg2 (launchContents m c)),
      (h c main_arg3).trans (ops_arg3 (launchContents m c)),
      (h c main_arg4).trans (ops_arg4 (launchContents m c)),
      (h c main_arg5).trans (ops_arg5 (launchContents m c)),
      (h c main_arg6).trans (ops_arg6 (launchContents m c))⟩)
    (run_seq ValueP.scopedRefs_eq ValueP.scopedSems_eq defs main (fun _ => ValueP.ops) ValueP.main_eq (fun _ => ValueP.ops_sub) m ρ)

end Cert.Gcn

end
-- ==== Proof.lean ====
/-
  A two-layer graph convolution: log_softmax(Â · max(Â · (x · W1) + b1, 0) · W2 + b2), Â the adjacency with self-loops
  scaled by the inverse square roots of the weighted in-degrees.  The kernel program computes the three dense stages
  (x · W1; max(· + b1, 0) · W2; log_softmax(· + b2)) in three grid launches over blocks of rows and the two aggregations by
  Â between them on the host; the reference computes everything on the host.  At the ideal values a change of float
  format is the identity and a blocked matrix product is the whole product, so both programs apply the same gather /
  scale / scatter-add aggregation to the same arrays, and the results agree entry by entry: no law of the extended reals
  beyond that is used, and the finiteness of the inputs is never opened.
  The three frames: the two kernel programs' are their generated frame certificates; the reference's is its run read
  stretch by stretch with the result dropped.  The idealization rewrote nothing, so the preserved-meaning claim is trivial.
-/
import proofs.«108973_j20822001451081_1_alg».proof.Defs
import proofs.«108973_j20822001451081_1_alg».proof.Proof.Gen.Kernel
import proofs.«108973_j20822001451081_1_alg».proof.Proof.Gen.Kernel.Skeleton
import proofs.«108973_j20822001451081_1_alg».proof.Proof.Gen.Kernel.Launch
import proofs.«108973_j20822001451081_1_alg».proof.Proof.Gen.Kernel.Points
import proofs.«108973_j20822001451081_1_alg».proof.Proof.Gen.Kernel.Frame
import proofs.«108973_j20822001451081_1_alg».proof.Proof.Gen.KernelIdeal
import proofs.«108973_j20822001451081_1_alg».proof.Proof.Gen.KernelIdeal.Skeleton
import proofs.«108973_j20822001451081_1_alg».proof.Proof.Gen.KernelIdeal.Launch
import proofs.«108973_j20822001451081_1_alg».proof.Proof.Gen.KernelIdeal.Points
import proofs.«108973_j20822001451081_1_alg».proof.Proof.Gen.KernelIdeal.Frame
import proofs.«108973_j20822001451081_1_alg».proof.Proof.Gen.ReferenceIdeal
import proofs.«108973_j20822001451081_1_alg».proof.Proof.Gen.Pre_finite_inputs
import proofs.«108973_j20822001451081_1_alg».proof.Proof.KernelRun
import proofs.«108973_j20822001451081_1_alg».proof.Proof.KernelValue
import proofs.«108973_j20822001451081_1_alg».proof.Proof.ValueEq
import proofs.«108973_j20822001451081_1_alg».proof.Proof.RefStretch
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference terminates without a fault and leaves its arguments as launched: its run, the result dropped. -/
theorem frame_referenceIdeal : Cert.frame_ReferenceIdeal := fun m ρ _ =>
  (θ_run Cert.ReferenceIdeal.defs _ _).mono (fun _ h c => (h c).2) (Cert.Gcn.ref_run m ρ)

theorem preserves : Cert.preserves_Kernel_KernelIdeal := trivial

/-- Both programs end with the result array at the reference's last stage of the (agreeing) arguments: the kernel
    program's by its boundary contents walked back to the launch memory and the identity of the two values, the
    reference's by its run. -/
theorem algebraic : Cert.algebraic_KernelIdeal_ReferenceIdeal := by
  intro m ρ m' ρ' _ hagree
  refine ⟨fun c => Cert.ReferenceIdeal.ReadP.val_main_v99 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans ((Cert.Gcn.kernel_value m ρ c).trans (Cert.Gcn.value_eq _ _ _ _ _ _ _)), (h c).2⟩)
      (Cert.KernelIdeal.Named.run_named m ρ)
  · refine (θ_run Cert.ReferenceIdeal.defs _ _).mono (fun r h c => ⟨(h c).1.trans ?_, (h c).2⟩) (Cert.Gcn.ref_run m' ρ')
    obtain ⟨e0, e1, e2, e3, e4, e5, e6⟩ := hagree c
    rw [e0, e1, e2, e3, e4, e5, e6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
